-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_arg4 : FVec F S1024x2048 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S16x2048x1024 .f32) (main_arg1 : FVec F S16x2048x1024 .f32) (main_arg2 : FVec F S1024x1024 .f32) (main_arg3 : FVec F S1024 .f32) (main_arg4 : FVec F S1024x2048 .f32) (main_arg5 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S16x2048x1024 : Shape := ⟨3, ![16, 2048, 1024]⟩
abbrev S1024x1024 : Shape := ⟨2, ![1024, 1024]⟩
abbrev S1024 : Shape := ⟨1, ![1024]⟩
abbrev S1024x2048 : Shape := ⟨2, ![1024, 2048]⟩
abbrev S16x2048x2048 : Shape := ⟨3, ![16, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S1x1024 : Shape := ⟨2, ![1, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S16x2048x1024, .bf16⟩
  | .hbm, ⟨15, _⟩ => ⟨S16x2048x1024, .f32⟩
  | .hbm, ⟨16, _⟩ => ⟨S16x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024, .f32⟩
  | .local _ .vmem, ⟨8, _⟩ => ⟨S1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x2048, .f32⟩
  | .local _ .vmem, ⟨12, _⟩ => ⟨S1x256x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  transposes_S1024x1024_S1024x1024_1_0 : S1024x1024.Transposes [1, 0] S1024x1024
  bitsLt_bf16_f32 : FTy.bits .bf16 < FTy.bits .f32
  slices_S1024x2048_S1024x1024_0_0 : S1024x2048.Slices ![0, 0] S1024x1024
  slices_S1024x2048_S1024x1024_0_1024 : S1024x2048.Slices ![0, 1024] S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x1024_S1x256x1024 : S256x1024.ShapeCasts S1x256x1024
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x2048x1024.size a
  hwx0_0 : ∀ i : grid0.Coords, EltTy.bits .f32 = 32 ∨ (Rect.block (s := S16x2048x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S16x2048x1024.size a
  hwx0_1 : ∀ i : grid0.Coords, EltTy.bits .bf16 = 32 ∨ (Rect.block (s := S16x2048x1024) S1x2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S16x2048x1024.size a
  hwx0_7 : ∀ i : grid0.Coords, EltTy.bits .f32 = 32 ∨ (Rect.block (s := S16x2048x1024) S1x256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x2048.size a ≤ S16x2048x2048.size a
  hwx0_8 : ∀ i : grid0.Coords, EltTy.bits .f32 = 32 ∨ (Rect.block (s := S16x2048x2048) S1x256x2048.size (cc0_transform_8 i) (hinb0_8 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S1x256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S1x256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S1024x1024 : Shape := ⟨2, ![1024, 1024]⟩
abbrev S1024 : Shape := ⟨1, ![1024]⟩
abbrev S1024x2048 : Shape := ⟨2, ![1024, 2048]⟩
abbrev S1x1x1024 : Shape := ⟨3, ![1, 1, 1024]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S16x2048x1024, .f32⟩
  | .hbm, ⟨7, _⟩ => ⟨S1x1x1024, .f32⟩
  | .hbm, ⟨8, _⟩ => ⟨S16x2048x1024, .f32⟩
  | .hbm, ⟨9, _⟩ => ⟨S16x2048x1024, .f32⟩
  | .hbm, ⟨10, _⟩ => ⟨S16x2048x2048, .f32⟩
  | .hbm, ⟨11, _⟩ => ⟨S_, .f32⟩
  | .hbm, ⟨12, _⟩ => ⟨S16x2048, .f32⟩
  | .hbm, ⟨13, _⟩ => ⟨S_, .f32⟩
  | .hbm, ⟨14, _⟩ => ⟨S16x2048, .f32⟩
  | .hbm, ⟨15, _⟩ => ⟨S16x2048, .f32⟩
  | .hbm, ⟨16, _⟩ => ⟨S16x2048x1, .f32⟩
  | .hbm, ⟨17, _⟩ => ⟨S16x2048x2048, .f32⟩
  | .hbm, ⟨18, _⟩ => ⟨S16x2048x2048, .f32⟩
  | .hbm, ⟨19, _⟩ => ⟨S16x2048x2048, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S16x2048x2048, .f32⟩
  | .hbm, ⟨24, _⟩ => ⟨S16x2048x2048, .f32⟩
  | .hbm, ⟨25, _⟩ => ⟨S16x2048x1024, .f32⟩
  | .hbm, ⟨26, _⟩ => ⟨S16x2048x2048, .f32⟩
  | .hbm, ⟨27, _⟩ => ⟨S16x2048x1024, .f32⟩
  | .hbm, ⟨28, _⟩ => ⟨S1x1x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  concatenates_S16x2048x1024_S16x2048x1024_S16x2048x2048_d2 : Shape.Concatenates [S16x2048x1024, S16x2048x1024] S16x2048x2048 2
  dot_S16x2048x1024_S1024x1024_S16x2048x1024_2_1_01_0_n_n_wf : DotDims.WF S16x2048x1024 S1024x1024 S16x2048x1024 [2] [1] [0, 1] [0] [] []
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]
  dot_S16x2048x2048_S1024x2048_S16x2048x1024_2_1_01_0_n_n_wf : DotDims.WF S16x2048x2048 S1024x2048 S16x2048x1024 [2] [1] [0, 1] [0] [] []

variable [Facts₀]

def dot_S16x2048x1024_S1024x1024_S16x2048x1024_2_1_01_0_n_n : DotDims S16x2048x1024 S1024x1024 S16x2048x1024 where
  lhsContracting := [2]
  rhsContracting := [1]
  lhsNonContracting := [0, 1]
  rhsNonContracting := [0]
  lhsBatch := []
  rhsBatch := []
  wf := dot_S16x2048x1024_S1024x1024_S16x2048x1024_2_1_01_0_n_n_wf
def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf
def dot_S16x2048x2048_S1024x2048_S16x2048x1024_2_1_01_0_n_n : DotDims S16x2048x2048 S1024x2048 S16x2048x1024 where
  lhsContracting := [2]
  rhsContracting := [1]
  lhsNonContracting := [0, 1]
  rhsNonContracting := [0]
  lhsBatch := []
  rhsBatch := []
  wf := dot_S16x2048x2048_S1024x2048_S16x2048x1024_2_1_01_0_n_n_wf

class Facts : Prop extends Facts₀ where

variable [Facts]
-- ==== Proof.LibLastAxisSoftmax.lean ====
/-
  Softmax along the last axis, read at an index, on the extended reals.

  A row of extended reals `f : Fin c → EReal` has the softmax
  `exp (f l - M) / ∑ k, exp (f k - M)`, with `M` the row's maximum taken from the word of minus
  infinity upward (`softmaxAt`). Two programs compute it, each along the LAST axis of an array:
  * a vector program on a rank-3 array [a, b, c]: the maximum and the sum are lane reductions to
    [a, b], each kept as a unit axis [a, b, 1] and broadcast back to [a, b, c] (`vecSoftmax3`);
  * a host program on a rank-4 array [a, b, g, c]: the maximum and the sum are reductions over
    axis 3 to [a, b, g], the maximum joined once more with minus infinity (which changes nothing),
    each broadcast back through [a, b, g, 1] (`hostSoftmax4`).
  Read at an index both are `softmaxAt` of the row through that index
  (`vecSoftmax3_apply`, `hostSoftmax4_apply`): no law of arithmetic is used beyond
  `max b (fold max b f) = fold max b f` and `0 + s = s`.
-/
import Idealize.ShloMosaic.PureOps.Ideal.Laws
import Idealize.ShloMosaic.Lib.ValueIdx
import Idealize.ShloMosaic.Lib.Pipeline.Value

noncomputable section

open scoped BigOperators

namespace Idealize.ShloMosaic.LastAxisSoftmax

open Idealize.ShloMosaic Idealize.ShloMosaic.ValueIdx

/-- The extended real that the f32 word of minus infinity denotes; it is only ever compared with itself. -/
abbrev negInf : EReal := Ideal.ofBits .f32 0xFF800000#32

/-- The softmax of the row `f` at its member `l`: the maximum is folded from `negInf`. -/
def softmaxAt {c : Nat} (f : Fin c → EReal) (l : Fin c) : EReal :=
  Ideal.div (Ideal.exp (f l - (Finset.univ : Finset (Fin c)).fold max negInf f))
    (∑ k : Fin c, Ideal.exp (f k - (Finset.univ : Finset (Fin c)).fold max negInf f))

/-! ## The vector program, rank 3 -/

section Vec
variable {n0 n1 n2 : Nat}

/-- A reduced array [a, b], given a unit last axis and broadcast along it to [a, b, c], reads at
    (p, g, l) what it held at (p, g). -/
theorem keepdims3_apply {α : Type} (v : (⟨2, ![n0, n1]⟩ : Shape).Idx → α)
    (hc : (⟨2, ![n0, n1]⟩ : Shape).ShapeCasts ⟨3, ![n0, n1, 1]⟩)
    (hb : (⟨3, ![n0, n1, 1]⟩ : Shape).Broadcasts ⟨3, ![n0, n1, n2]⟩)
    (p : Fin n0) (g : Fin n1) (l : Fin n2) :
    broadcastTo ⟨3, ![n0, n1, n2]⟩ (shapeCast ⟨3, ![n0, n1, 1]⟩ v hc) hb (ix3 p g l) = v (ix2 p g) := by
  rw [broadcastTo_apply _ hb (ix3 p g l) (ix3 p g (⟨0, Nat.one_pos⟩ : Fin 1)) (fun a => by
    match a with
    | ⟨0, _⟩ =>
      show p.val = if n0 = 1 then 0 else p.val
      split
      · have := p.isLt; omega
      · rfl
    | ⟨1, _⟩ =>
      show g.val = if n1 = 1 then 0 else g.val
      split
      · have := g.isLt; omega
      · rfl
    | ⟨2, _⟩ =>
      show 0 = if (1 : Nat) = 1 then 0 else l.val
      rw [if_pos rfl])]
  exact shapeCast_apply v hc _ (ix2 p g) (by
    rw [Shape.rowMajor_val_two, Shape.rowMajor_val_three]
    show p.val * n1 + g.val = (p.val * n1 + g.val) * 1 + 0
    omega)

/-- The index of [a, b, c] over (p, g) of [a, b] with `k` on the reduced last axis is (p, g, k). -/
theorem lift3 (hr : (⟨3, ![n0, n1, n2]⟩ : Shape).Reduces [2] ⟨2, ![n0, n1]⟩) (p : Fin n0) (g : Fin n1) (k : Fin n2) :
    hr.lift (ix2 p g) k = ix3 p g k := by
  funext a
  apply Fin.ext
  match a with
  | ⟨0, _⟩ => rfl
  | ⟨1, _⟩ => rfl
  | ⟨2, _⟩ => rfl

variable {F : FTy → Type} [FloatOps F]

/-- The vector program: subtract the lane maximum, exponentiate, divide by the lane sum. -/
def vecSoftmax3 (X : FVec F ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) : FVec F ⟨3, ![n0, n1, n2]⟩ .f32 :=
  divf
    (exp (subf X (broadcastTo ⟨3, ![n0, n1, n2]⟩ (shapeCast ⟨3, ![n0, n1, 1]⟩
      (multiReduction .maximumf [2] ⟨2, ![n0, n1]⟩ X 0xFF800000#32 hr hφ hmax) hc) hb)))
    (broadcastTo ⟨3, ![n0, n1, n2]⟩ (shapeCast ⟨3, ![n0, n1, 1]⟩
      (multiReduction .add [2] ⟨2, ![n0, n1]⟩
        (exp (subf X (broadcastTo ⟨3, ![n0, n1, n2]⟩ (shapeCast ⟨3, ![n0, n1, 1]⟩
          (multiReduction .maximumf [2] ⟨2, ![n0, n1]⟩ X 0xFF800000#32 hr hφ hmax) hc) hb)))
        0x00000000#32 hr hφ hadd) hc) hb)

end Vec

/-- Read at (p, g, l), the vector program is the softmax of row (p, g, ·) at `l`. -/
theorem vecSoftmax3_apply {n0 n1 n2 : Nat} (X : FVec Ideal ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) (p : Fin n0) (g : Fin n1) (l : Fin n2) :
    vecSoftmax3 (F := Ideal) X hr hc hb hφ hmax hadd (ix3 p g l) = softmaxAt (fun k : Fin n2 => X (ix3 p g k)) l := by
  -- the lane maximum at (p, g): the fold of `max` over the row
  have hM : multiReduction .maximumf [2] ⟨2, ![n0, n1]⟩ X 0xFF800000#32 hr hφ hmax (ix2 p g)
      = (Finset.univ : Finset (Fin n2)).fold max negInf (fun k : Fin n2 => X (ix3 p g k)) := by
    rw [Ideal.multiReduction_maximumf_single]
    exact congrArg (fun f : Fin n2 → EReal => (Finset.univ : Finset (Fin n2)).fold max negInf f)
      (funext fun k => congrArg X (lift3 hr p g k))
  -- the exponentials at (p, g, k)
  have hE : ∀ k : Fin n2,
      exp (subf X (broadcastTo ⟨3, ![n0, n1, n2]⟩ (shapeCast ⟨3, ![n0, n1, 1]⟩
        (multiReduction .maximumf [2] ⟨2, ![n0, n1]⟩ X 0xFF800000#32 hr hφ hmax) hc) hb)) (ix3 p g k)
      = Ideal.exp (X (ix3 p g k) - (Finset.univ : Finset (Fin n2)).fold max negInf (fun k : Fin n2 => X (ix3 p g k))) := by
    intro k
    show Ideal.exp (X (ix3 p g k) - broadcastTo ⟨3, ![n0, n1, n2]⟩ (shapeCast ⟨3, ![n0, n1, 1]⟩
        (multiReduction .maximumf [2] ⟨2, ![n0, n1]⟩ X 0xFF800000#32 hr hφ hmax) hc) hb (ix3 p g k)) = _
    rw [keepdims3_apply, hM]
  unfold vecSoftmax3 softmaxAt
  show Ideal.div _ _ = _
  rw [hE l, keepdims3_apply, Ideal.multiReduction_add_single]
  refine congrArg (Ideal.div _) ?_
  exact Finset.sum_congr rfl fun k _ => by rw [lift3 hr p g k, hE k]

/-! ## The host program, rank 4 -/

section Host
variable {n0 n1 n2 n3 : Nat}

/-- A reduced array [a, b, g], broadcast to [a, b, g, 1] and then along the unit axis to [a, b, g, c],
    reads at (a, b, g, l) what it held at (a, b, g). -/
theorem keepdims4_apply {α : Type} (v : (⟨3, ![n0, n1, n2]⟩ : Shape).Idx → α)
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (a : Fin n0) (b : Fin n1) (g : Fin n2) (l : Fin n3) :
    broadcastInDim ⟨4, ![n0, n1, n2, n3]⟩ ![0, 1, 2, 3] h2 (broadcastInDim ⟨4, ![n0, n1, n2, 1]⟩ ![0, 1, 2] h1 v) (ix4 a b g l)
      = v (ix3 a b g) := by
  rw [broadcastInDim_apply _ h2 _ (ix4 a b g l) (ix4 a b g (⟨0, Nat.one_pos⟩ : Fin 1)) (fun d => by
    match d with
    | ⟨0, _⟩ =>
      show a.val = if n0 = 1 then 0 else a.val
      split
      · have := a.isLt; omega
      · rfl
    | ⟨1, _⟩ =>
      show b.val = if n1 = 1 then 0 else b.val
      split
      · have := b.isLt; omega
      · rfl
    | ⟨2, _⟩ =>
      show g.val = if n2 = 1 then 0 else g.val
      split
      · have := g.isLt; omega
      · rfl
    | ⟨3, _⟩ =>
      show 0 = if (1 : Nat) = 1 then 0 else l.val
      rw [if_pos rfl])]
  exact broadcastInDim_apply _ h1 v _ (ix3 a b g) (fun d => by
    match d with
    | ⟨0, _⟩ =>
      show a.val = if n0 = 1 then 0 else a.val
      split
      · have := a.isLt; omega
      · rfl
    | ⟨1, _⟩ =>
      show b.val = if n1 = 1 then 0 else b.val
      split
      · have := b.isLt; omega
      · rfl
    | ⟨2, _⟩ =>
      show g.val = if n2 = 1 then 0 else g.val
      split
      · have := g.isLt; omega
      · rfl)

/-- The index of [a, b, g, c] over (a, b, g) with `k` on the reduced last axis is (a, b, g, k). -/
theorem lift4 (hr : (⟨4, ![n0, n1, n2, n3]⟩ : Shape).Reduces [3] ⟨3, ![n0, n1, n2]⟩) (a : Fin n0) (b : Fin n1) (g : Fin n2)
    (k : Fin n3) : hr.lift (ix3 a b g) k = ix4 a b g k := by
  funext d
  apply Fin.ext
  match d with
  | ⟨0, _⟩ => rfl
  | ⟨1, _⟩ => rfl
  | ⟨2, _⟩ => rfl
  | ⟨3, _⟩ => rfl

variable {F : FTy → Type} [FloatOps F]

/-- The host program: the maximum over axis 3 joined with minus infinity, subtracted, exponentiated, divided by
    the sum over axis 3 (from zero). -/
def hostSoftmax4 (X : FVec F ⟨4, ![n0, n1, n2, n3]⟩ .f32)
    (hred : (⟨4, ![n0, n1, n2, n3]⟩ : Shape).ReducesTo [3] ⟨3, ![n0, n1, n2]⟩)
    (hu : 0 < (⟨0, ![]⟩ : Shape).numel)
    (h0 : (⟨0, ![]⟩ : Shape).BroadcastsInDim ⟨3, ![n0, n1, n2]⟩ (![] : Fin 0 → Fin 3))
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4)) :
    FVec F ⟨4, ![n0, n1, n2, n3]⟩ .f32 :=
  Host.divf
    (Host.exp (subf X (broadcastInDim ⟨4, ![n0, n1, n2, n3]⟩ ![0, 1, 2, 3] h2 (broadcastInDim ⟨4, ![n0, n1, n2, 1]⟩ ![0, 1, 2] h1
      (maximumf (broadcastInDim ⟨3, ![n0, n1, n2]⟩ ![] h0 (constant ⟨0, ![]⟩ .f32 0xFF800000#32))
        (Host.reduce FloatOps.maximumf X (constant ⟨0, ![]⟩ .f32 0xFF800000#32) hred hu))))))
    (broadcastInDim ⟨4, ![n0, n1, n2, n3]⟩ ![0, 1, 2, 3] h2 (broadcastInDim ⟨4, ![n0, n1, n2, 1]⟩ ![0, 1, 2] h1
      (Host.reduceAdd
        (Host.exp (subf X (broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant ⟨0, ![]⟩ .f32 0xFF800000#32))
            (Host.reduce FloatOps.maximumf X (constant ⟨0, ![]⟩ .f32 0xFF800000#32) hred hu))))))
        (constant ⟨0, ![]⟩ .f32 0x00000000#32) hred hu)))

end Host

/-- Read at (a, b, g, l), the host program is the softmax of row (a, b, g, ·) at `l`. -/
theorem hostSoftmax4_apply {n0 n1 n2 n3 : Nat} (X : FVec Ideal ⟨4, ![n0, n1, n2, n3]⟩ .f32)
    (hred : (⟨4, ![n0, n1, n2, n3]⟩ : Shape).ReducesTo [3] ⟨3, ![n0, n1, n2]⟩)
    (hr : (⟨4, ![n0, n1, n2, n3]⟩ : Shape).Reduces [3] ⟨3, ![n0, n1, n2]⟩)
    (hu : 0 < (⟨0, ![]⟩ : Shape).numel)
    (h0 : (⟨0, ![]⟩ : Shape).BroadcastsInDim ⟨3, ![n0, n1, n2]⟩ (![] : Fin 0 → Fin 3))
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (a : Fin n0) (b : Fin n1) (g : Fin n2) (l : Fin n3) :
    hostSoftmax4 (F := Ideal) X hred hu h0 h1 h2 (ix4 a b g l) = softmaxAt (fun k : Fin n3 => X (ix4 a b g k)) l := by
  -- the maximum at (a, b, g): joining the fold from minus infinity with minus infinity changes nothing
  have hM : maximumf (broadcastInDim ⟨3, ![n0, n1, n2]⟩ ![] h0 (constant (F := Ideal) ⟨0, ![]⟩ .f32 0xFF800000#32))
        (Host.reduce FloatOps.maximumf X (constant (F := Ideal) ⟨0, ![]⟩ .f32 0xFF800000#32) hred hu) (ix3 a b g)
      = (Finset.univ : Finset (Fin n3)).fold max negInf (fun k : Fin n3 => X (ix4 a b g k)) := by
    show max (broadcastInDim ⟨3, ![n0, n1, n2]⟩ ![] h0 (constant (F := Ideal) ⟨0, ![]⟩ .f32 0xFF800000#32) (ix3 a b g))
        (Host.reduce FloatOps.maximumf X (constant (F := Ideal) ⟨0, ![]⟩ .f32 0xFF800000#32) hred hu (ix3 a b g)) = _
    rw [Host.reduce_eq_fold_single FloatOps.maximumf X _ hred hr hu (ix3 a b g),
      broadcastInDim_apply _ h0 _ (ix3 a b g) ix0 (fun d => d.elim0)]
    show max negInf (Finset.univ.fold max negInf (X ∘ hr.lift (ix3 a b g))) = _
    rw [max_eq_right ((Finset.le_fold_max _).2 (Or.inl le_rfl))]
    exact congrArg (fun f : Fin n3 → EReal => (Finset.univ : Finset (Fin n3)).fold max negInf f)
      (funext fun k => congrArg X (lift4 hr a b g k))
  -- the exponentials at (a, b, g, k)
  have hE : ∀ k : Fin n3,
      Host.exp (subf X (broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant (F := Ideal) ⟨0, ![]⟩ .f32 0xFF800000#32))
            (Host.reduce FloatOps.maximumf X (constant (F := Ideal) ⟨0, ![]⟩ .f32 0xFF800000#32) hred hu))))) (ix4 a b g k)
      = Ideal.exp (X (ix4 a b g k) - (Finset.univ : Finset (Fin n3)).fold max negInf (fun k : Fin n3 => X (ix4 a b g k))) := by
    intro k
    show Ideal.exp (X (ix4 a b g k) - broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant (F := Ideal) ⟨0, ![]⟩ .f32 0xFF800000#32))
            (Host.reduce FloatOps.maximumf X (constant (F := Ideal) ⟨0, ![]⟩ .f32 0xFF800000#32) hred hu))) (ix4 a b g k)) = _
    rw [keepdims4_apply, hM]
  unfold hostSoftmax4 softmaxAt
  show Ideal.div _ _ = _
  rw [hE l, keepdims4_apply]
  refine congrArg (Ideal.div _) ?_
  show Ideal.hostReduceAdd hred _ (Ideal.ofBits .f32 0x00000000#32) (ix3 a b g) = _
  rw [Ideal.hostReduceAdd_single hred hr, Ideal.ofBits_zero_f32, zero_add]
  exact Finset.sum_congr rfl fun k _ => by rw [lift4 hr a b g k, hE k]

end Idealize.ShloMosaic.LastAxisSoftmax

end
-- ==== Proof.Spec.lean ====
/-
  Luong attention on the extended reals, one query row at a time.

  For one query row `xr` (a vector of 1024 features) of one batch, with that batch's memory bank `M` (2048 rows of 1024
  features), the layer computes
    h e      = (Σ d, xr d · WT d e) + b e                         the projected query,
    score s  = Σ d, h d · M s d                                    its inner product with memory row s,
    align s  = exp (score s − max score) / Σ k, exp (score k − max score)     the softmax of the scores over s,
    ctx d    = Σ s, align s · M s d                                the attention-weighted memory,
    attn e   = tanh ((Σ d, ctx d · WcT d e + Σ d, xr d · WiT d e) + bo e)     the output projection of [ctx, xr].
  Every sum and product is the exact one of the extended reals; no law of arithmetic is used in this file.
  `alignArr` and `attnArr` are the two results as whole arrays [16, 2048, 2048] and [16, 2048, 1024] of the six argument
  arrays: the row at (b, t) uses query row (b, t, ·), memory bank b, the input weight transposed, and the output
  weight's left half (columns 0..1023) against ctx and right half (columns 1024..2047) against the query row.
-/
import proofs.«150495_j34995393527971_2_alg».proof.Proof.LibLastAxisSoftmax
import Idealize.ShloMosaic.Lib.ValueIdx
import Idealize.ShloMosaic.PureOps.Ideal

noncomputable section

open scoped BigOperators

namespace Cert.Attention

open Idealize.ShloMosaic Idealize.ShloMosaic.ValueIdx Idealize.ShloMosaic.LastAxisSoftmax

/-- The projected query: `h e = (Σ d, xr d · WT d e) + b e`. -/
def hidRow (xr : Fin 1024 → EReal) (WT : Fin 1024 → Fin 1024 → EReal) (b : Fin 1024 → EReal) (e : Fin 1024) : EReal :=
  (∑ d : Fin 1024, xr d * WT d e) + b e

/-- The score of memory row `s`: `Σ d, h d · M s d`. -/
def scoreRow (h : Fin 1024 → EReal) (M : Fin 2048 → Fin 1024 → EReal) (s : Fin 2048) : EReal :=
  ∑ d : Fin 1024, h d * M s d

/-- The attention weights of one query row: the softmax over the memory rows of the scores of the projected query. -/
def alignOf (xr : Fin 1024 → EReal) (WT : Fin 1024 → Fin 1024 → EReal) (b : Fin 1024 → EReal)
    (M : Fin 2048 → Fin 1024 → EReal) (s : Fin 2048) : EReal :=
  softmaxAt (scoreRow (hidRow xr WT b) M) s

/-- The attention-weighted memory: `ctx d = Σ s, al s · M s d`. -/
def ctxRow (al : Fin 2048 → EReal) (M : Fin 2048 → Fin 1024 → EReal) (d : Fin 1024) : EReal :=
  ∑ s : Fin 2048, al s * M s d

/-- The output row: `tanh ((Σ d, c d · WcT d e + Σ d, xr d · WiT d e) + bo e)`. -/
def outRow (c xr : Fin 1024 → EReal) (WcT WiT : Fin 1024 → Fin 1024 → EReal) (bo : Fin 1024 → EReal) (e : Fin 1024) : EReal :=
  Ideal.tanh (((∑ d : Fin 1024, c d * WcT d e) + (∑ d : Fin 1024, xr d * WiT d e)) + bo e)

/-- The attention output of one query row. -/
def attnOf (xr : Fin 1024 → EReal) (M : Fin 2048 → Fin 1024 → EReal) (WT : Fin 1024 → Fin 1024 → EReal) (b : Fin 1024 → EReal)
    (WcT WiT : Fin 1024 → Fin 1024 → EReal) (bo : Fin 1024 → EReal) (e : Fin 1024) : EReal :=
  outRow (ctxRow (alignOf xr WT b M) M) xr WcT WiT bo e

/-- Column `d` of the output weight's left half. -/
def lo (d : Fin 1024) : Fin 2048 := ⟨d.val, by omega⟩
/-- Column `d` of the output weight's right half. -/
def hi (d : Fin 1024) : Fin 2048 := ⟨1024 + d.val, by omega⟩

abbrev Sx : Shape := ⟨3, ![16, 2048, 1024]⟩
abbrev Sa : Shape := ⟨3, ![16, 2048, 2048]⟩
abbrev Sw : Shape := ⟨2, ![1024, 1024]⟩
abbrev So : Shape := ⟨2, ![1024, 2048]⟩
abbrev Sb : Shape := ⟨1, ![1024]⟩

/-- The attention weights as one array [16, 2048, 2048] of the query array, the memory bank, the input weight and bias. -/
def alignArr (x mem : Sx.Idx → EReal) (Win : Sw.Idx → EReal) (bin : Sb.Idx → EReal) : Sa.Idx → EReal := fun i =>
  alignOf (fun d => x (ix3 (i 0) (i 1) d)) (fun d e => Win (ix2 e d)) (fun e => bin (ix1 e)) (fun s d => mem (ix3 (i 0) s d)) (i 2)

/-- The attention output as one array [16, 2048, 1024] of the six argument arrays. -/
def attnArr (x mem : Sx.Idx → EReal) (Win : Sw.Idx → EReal) (bin : Sb.Idx → EReal) (Wout : So.Idx → EReal) (bout : Sb.Idx → EReal) :
    Sx.Idx → EReal := fun i =>
  attnOf (fun d => x (ix3 (i 0) (i 1) d)) (fun s d => mem (ix3 (i 0) s d)) (fun d e => Win (ix2 e d)) (fun e => bin (ix1 e))
    (fun d e => Wout (ix2 e (lo d))) (fun d e => Wout (ix2 e (hi d))) (fun e => bout (ix1 e)) (i 2)

end Cert.Attention

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.LibRowSoftmax.lean ====
/-
  Softmax along the rows of a matrix and along the last axis of a rank-3 array, read at an index, on the
  extended reals: the low-rank companions of the rank-3 vector form and the rank-4 host form.

  * a vector program on [a, b]: the row maximum and the row sum are lane reductions to [a], each kept as a
    unit column [a, 1] and broadcast back along the rows (`vecSoftmax2`);
  * a host program on [a, b, c]: the maximum and the sum are reductions over axis 2 to [a, b], the maximum
    joined once more with minus infinity, each broadcast back through [a, b, 1] (`hostSoftmax3`).
  Read at an index both are `softmaxAt` of the row through that index. No law of arithmetic is used beyond
  max b (fold max b f) = fold max b f and 0 + s = s.
-/
import proofs.«150495_j34995393527971_2_alg».proof.Proof.LibLastAxisSoftmax
import proofs.«150495_j34995393527971_2_alg».proof.Proof.LibKeepdims

noncomputable section

open scoped BigOperators

namespace Idealize.ShloMosaic.LastAxisSoftmax

open Idealize.ShloMosaic Idealize.ShloMosaic.ValueIdx

/-! ## The vector program, rank 2 -/

section Vec2
variable {n0 n1 : Nat}

/-- The index of [a, b] over p of [a] with `k` on the reduced last axis is (p, k). -/
theorem lift2 (hr : (⟨2, ![n0, n1]⟩ : Shape).Reduces [1] ⟨1, ![n0]⟩) (p : Fin n0) (k : Fin n1) :
    hr.lift (ix1 p) k = ix2 p k := by
  funext a
  apply Fin.ext
  match a with
  | ⟨0, _⟩ => rfl
  | ⟨1, _⟩ => rfl

variable {F : FTy → Type} [FloatOps F]

/-- The vector program: subtract the row maximum, exponentiate, divide by the row sum. -/
def vecSoftmax2 (X : FVec F ⟨2, ![n0, n1]⟩ .f32)
    (hr : (⟨2, ![n0, n1]⟩ : Shape).Reduces [1] ⟨1, ![n0]⟩)
    (hc : (⟨1, ![n0]⟩ : Shape).ShapeCasts ⟨2, ![n0, 1]⟩)
    (hb : (⟨2, ![n0, 1]⟩ : Shape).Broadcasts ⟨2, ![n0, n1]⟩)
    (hφ : FKind.Formats .f32) (hmax : (0xFF800000#32 : BitVec 32) = FKind.maximumf.neutral .f32 hφ)
    (hadd : (0x00000000#32 : BitVec 32) = FKind.add.neutral .f32 hφ) : FVec F ⟨2, ![n0, n1]⟩ .f32 :=
  divf
    (exp (subf X (broadcastTo ⟨2, ![n0, n1]⟩ (shapeCast ⟨2, ![n0, 1]⟩
      (multiReduction .maximumf [1] ⟨1, ![n0]⟩ X 0xFF800000#32 hr hφ hmax) hc) hb)))
    (broadcastTo ⟨2, ![n0, n1]⟩ (shapeCast ⟨2, ![n0, 1]⟩
      (multiReduction .add [1] ⟨1, ![n0]⟩
        (exp (subf X (broadcastTo ⟨2, ![n0, n1]⟩ (shapeCast ⟨2, ![n0, 1]⟩
          (multiReduction .maximumf [1] ⟨1, ![n0]⟩ X 0xFF800000#32 hr hφ hmax) hc) hb)))
        0x00000000#32 hr hφ hadd) hc) hb)

end Vec2

/-- Read at (p, l), the vector program is the softmax of row p at `l`. -/
theorem vecSoftmax2_apply {n0 n1 : Nat} (X : FVec Ideal ⟨2, ![n0, n1]⟩ .f32)
    (hr : (⟨2, ![n0, n1]⟩ : Shape).Reduces [1] ⟨1, ![n0]⟩)
    (hc : (⟨1, ![n0]⟩ : Shape).ShapeCasts ⟨2, ![n0, 1]⟩)
    (hb : (⟨2, ![n0, 1]⟩ : Shape).Broadcasts ⟨2, ![n0, n1]⟩)
    (hφ : FKind.Formats .f32) (hmax : (0xFF800000#32 : BitVec 32) = FKind.maximumf.neutral .f32 hφ)
    (hadd : (0x00000000#32 : BitVec 32) = FKind.add.neutral .f32 hφ) (p : Fin n0) (l : Fin n1) :
    vecSoftmax2 (F := Ideal) X hr hc hb hφ hmax hadd (ix2 p l) = softmaxAt (fun k : Fin n1 => X (ix2 p k)) l := by
  -- the row maximum at p: the fold of `max` over the row
  have hM : multiReduction .maximumf [1] ⟨1, ![n0]⟩ X 0xFF800000#32 hr hφ hmax (ix1 p)
      = (Finset.univ : Finset (Fin n1)).fold max negInf (fun k : Fin n1 => X (ix2 p k)) := by
    rw [Ideal.multiReduction_maximumf_single]
    exact congrArg (fun f : Fin n1 → EReal => (Finset.univ : Finset (Fin n1)).fold max negInf f)
      (funext fun k => congrArg X (lift2 hr p k))
  -- the exponentials at (p, k)
  have hE : ∀ k : Fin n1,
      exp (subf X (broadcastTo ⟨2, ![n0, n1]⟩ (shapeCast ⟨2, ![n0, 1]⟩
        (multiReduction .maximumf [1] ⟨1, ![n0]⟩ X 0xFF800000#32 hr hφ hmax) hc) hb)) (ix2 p k)
      = Ideal.exp (X (ix2 p k) - (Finset.univ : Finset (Fin n1)).fold max negInf (fun k : Fin n1 => X (ix2 p k))) := by
    intro k
    show Ideal.exp (X (ix2 p k) - broadcastTo ⟨2, ![n0, n1]⟩ (shapeCast ⟨2, ![n0, 1]⟩
        (multiReduction .maximumf [1] ⟨1, ![n0]⟩ X 0xFF800000#32 hr hφ hmax) hc) hb (ix2 p k)) = _
    rw [Cert.LibKeepdims.keepdims_apply, hM]
  unfold vecSoftmax2 softmaxAt
  show Ideal.div _ _ = _
  rw [hE l, Cert.LibKeepdims.keepdims_apply, Ideal.multiReduction_add_single]
  refine congrArg (Ideal.div _) ?_
  exact Finset.sum_congr rfl fun k _ => by rw [lift2 hr p k, hE k]

end Idealize.ShloMosaic.LastAxisSoftmax

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«150495_j34995393527971_2_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.LibRowsDot.lean ====
/-
  A matrix product that contracts the second axis of BOTH operands, read at an index, on the extended reals.

  For an M × K matrix A and an N × K matrix B the product A · Bᵀ has at (p, j) the entry Σ k, A (p, k) · B (j, k): the
  left operand is read at (row of the result, contracted coordinate) and the right at (column of the result, contracted
  coordinate). `RowsDot` says this of a dot's dimension numbers (one contracted axis of extent K and the four
  coordinate facts); the library's `DotDims.transposedRhs` satisfies it (`rowsDot_transposedRhs`), and a printed dot
  with those dimension numbers differs from it only in the proof of its well-formedness. `RowsDot.matmul_apply` reads the
  vector unit's product into the zero accumulator, `RowsDot.dotGeneral_apply` the host's product, as that sum.
-/
import Idealize.ShloMosaic.Lib.ValueIdx
import Idealize.ShloMosaic.PureOps.Ideal.Laws

noncomputable section

open scoped BigOperators

namespace Cert.LibRowsDot

open Idealize.ShloMosaic Idealize.ShloMosaic.ValueIdx

/-- What makes a dot the product of an M × K matrix with the transpose of an N × K matrix: one contracted axis of
    extent K; the left operand is read at (row of the result, contracted coordinate), the right at (column of the
    result, contracted coordinate). -/
structure RowsDot {M K N : ℕ} (d : DotDims ⟨2, ![M, K]⟩ ⟨2, ![N, K]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (i 1).val
  hr1 : ∀ (i : (⟨2, ![M, N]⟩ : Shape).Idx) (q : d.contr.Idx), (d.rhsIdx i q 1).val = (q ⟨0, by omega⟩).val

/-- The dimension numbers "left contracted on axis 1, right contracted on axis 1, no batch axis" are rows with rows. -/
theorem rowsDot_transposedRhs (M K N : ℕ) : RowsDot (DotDims.transposedRhs M K N) where
  hr := rfl
  hs := rfl
  hl0 := fun _ _ => rfl
  hl1 := fun _ _ => rfl
  hr0 := fun _ _ => rfl
  hr1 := fun _ _ => rfl

/-- The sum over a rows-with-rows dot's contraction index is the sum over `Fin K` of the products along row p of the left
    operand and row j of the right. -/
theorem RowsDot.sum_eq {M K N : ℕ} {d : DotDims ⟨2, ![M, K]⟩ ⟨2, ![N, K]⟩ ⟨2, ![M, N]⟩} (hd : RowsDot d)
    (lhs : (⟨2, ![M, K]⟩ : Shape).Idx → EReal) (rhs : (⟨2, ![N, K]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 j k) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 j k := funext fun a => Fin.ext (by
    match a with
    | ⟨0, _⟩ => exact hd.hr0 _ _
    | ⟨1, _⟩ => exact (hd.hr1 _ _).trans hk)
  rw [el, er]

/-- The matrix product into the zero accumulator of a rows-with-rows dot, at (p, j), is Σ k, lhs (p, k) · rhs (j, k). -/
theorem RowsDot.matmul_apply {M K N : ℕ} {φ₁ φ₂ : FTy} {d : DotDims ⟨2, ![M, K]⟩ ⟨2, ![N, K]⟩ ⟨2, ![M, N]⟩}
    (hd : RowsDot d) (lhs : FVec Ideal ⟨2, ![M, K]⟩ φ₁) (rhs : FVec Ideal ⟨2, ![N, K]⟩ φ₂) (p : Fin M) (j : Fin N) :
    matmul d none lhs rhs (constant ⟨2, ![M, N]⟩ .f32 0x00000000#32) (ix2 p j)
      = ∑ k : Fin K, lhs (ix2 p k) * rhs (ix2 j k) := by
  show FloatOps.matmul d none lhs rhs (constant ⟨2, ![M, N]⟩ .f32 0x00000000#32) (ix2 p j) = _
  rw [Ideal.matmul_constant_zero_apply]
  exact hd.sum_eq lhs rhs p j

/-- The host's product of a rows-with-rows dot, at (p, j), is Σ k, lhs (p, k) · rhs (j, k). -/
theorem RowsDot.dotGeneral_apply {M K N : ℕ} {φ₁ φ₂ : FTy} {d : DotDims ⟨2, ![M, K]⟩ ⟨2, ![N, K]⟩ ⟨2, ![M, N]⟩}
    (hd : RowsDot d) (lhs : FVec Ideal ⟨2, ![M, K]⟩ φ₁) (rhs : FVec Ideal ⟨2, ![N, K]⟩ φ₂) (p : Fin M) (j : Fin N) :
    FloatOps.dotGeneral d none .single lhs rhs (ix2 p j) = ∑ k : Fin K, lhs (ix2 p k) * rhs (ix2 j k) := by
  rw [Ideal.dotGeneral_apply]
  exact hd.sum_eq lhs rhs p j

end Cert.LibRowsDot

end
-- ==== Proof.Body.lean ====
/-
  The two values the attention kernel's body stores, read at an index, on the extended reals.

  The body works on one block of 256 query rows of one batch: the query block x (256 rows of 1024 features), that
  batch's memory bank M (2048 rows of 1024 features), the input weight transposed WT, the two halves of the output
  weight transposed WcT and WiT, and the two biases b and bo. It stores

    * the attention weights [256, 2048]: the row-wise softmax of the score block  (x · WT + b) · Mᵀ;
    * the attention output [1, 256, 1024]: tanh ((align · M) · WcT + x · WiT + bo).

  'pay3_apply': at (p, s) the first is 'alignOf' of query row p at s — the softmax over the memory rows k of
      score k = Σ d, ((Σ c, x p c · WT c d) + b d) · M k d.
  'pay1_apply': at (0, p, e) the second is 'attnOf' of query row p at e —
      tanh ((Σ d, (Σ s, align s · M s d) · WcT d e + Σ d, x p d · WiT d e) + bo e).

  The steps: a matrix product into the zero accumulator is the sum over its one contracted axis (rows times columns
  for three of the four products; rows times rows for the scores, where both operands are contracted on their second
  axis); a bias row repeated along the rows reads the bias at the column; a change of float format is the identity;
  the leading unit axis of a block is dropped and restored by a reshape that keeps the row-major position; the row
  maximum and row sum kept as a column and broadcast back make the row-wise softmax. No law of arithmetic is used.
-/
import proofs.«150495_j34995393527971_2_alg».proof.Proof.Gen.KernelIdeal.Skeleton
import proofs.«150495_j34995393527971_2_alg».proof.Proof.Spec
import proofs.«150495_j34995393527971_2_alg».proof.Proof.LibRowSoftmax
import proofs.«150495_j34995393527971_2_alg».proof.Proof.LibHostRead
import proofs.«150495_j34995393527971_2_alg».proof.Proof.LibPlainDot
import proofs.«150495_j34995393527971_2_alg».proof.Proof.LibRowsDot
import Idealize.ShloMosaic.Lib.ValueLayout

noncomputable section

open scoped BigOperators

namespace Cert.Attention.Body

open Cert.KernelIdeal Cert.KernelIdeal.Gen Cert.Attention Idealize.ShloMosaic Idealize.ShloMosaic.ValueIdx
  Idealize.ShloMosaic.LastAxisSoftmax Cert.LibHostRead Cert.LibPlainDot Cert.LibRowsDot

section

/-! ## The three dots of the body

  Each printed record has the dimension numbers of the plain or of the rows-with-rows product and differs from it only
  in the proof of its well-formedness. -/

/-- [256, 1024] times [1024, 1024]: rows times columns. -/
theorem plain_proj : PlainDot dot_S256x1024_S1024x1024_S256x1024_1_0_0_1_n_n := plainDot_plain 256 1024 1024

/-- [256, 2048] times [2048, 1024]: rows times columns. -/
theorem plain_ctx : PlainDot dot_S256x2048_S2048x1024_S256x1024_1_0_0_1_n_n := plainDot_plain 256 2048 1024

/-- [256, 1024] with [2048, 1024]: rows with rows. -/
theorem rows_score : RowsDot dot_S256x1024_S2048x1024_S256x2048_1_1_0_0_n_n := rowsDot_transposedRhs 256 1024 2048

/-! ## The query block, the projected query, the scores -/

/-- The query block with its unit axis dropped, at (p, d), is the query at (0, p, d). -/
theorem pay2_apply (P0 : Vec Ideal S1x256x1024 .f32) (p : Fin 256) (d : Fin 1024) :
    k0_pay2 P0 (ix2 p d) = P0 (ix3 (0 : Fin 1) p d) := by
  show shapeCast S256x1024 P0 shapeCasts_S1x256x1024_S256x1024 (ix2 p d) = _
  exact shapeCast_1ab_ab_apply P0 _ p d

/-- A weight block reshaped to its own shape is the weight block. -/
theorem pay6_apply (P3 : Vec Ideal S1024x1024 .bf16) (d e : Fin 1024) : k0_pay6 P3 (ix2 d e) = P3 (ix2 d e) := by
  show shapeCast S1024x1024 P3 shapeCasts_S1024x1024_S1024x1024 (ix2 d e) = _
  rw [shapeCast_self]

/-- The projected query block: x · WT + b. -/
def hidBlock (P0 : Vec Ideal S1x256x1024 .f32) (P2 : Vec Ideal S1024x1024 .bf16) (P5 : Vec Ideal S1024 .f32) :
    FVec Ideal S256x1024 .f32 :=
  addf
    (matmul dot_S256x1024_S1024x1024_S256x1024_1_0_0_1_n_n none (k0_pay2 P0)
      (shapeCast S1024x1024 P2 shapeCasts_S1024x1024_S1024x1024 : FVec Ideal S1024x1024 .bf16)
      (constant S256x1024 .f32 0x00000000#32))
    (broadcastTo S256x1024 (shapeCast S1x1024 P5 shapeCasts_S1024_S1x1024 : FVec Ideal S1x1024 .f32)
      broadcasts_S1x1024_S256x1024)

/-- At (p, e) the projected query block is the projected query of row p at e. -/
theorem hidBlock_apply (P0 : Vec Ideal S1x256x1024 .f32) (P2 : Vec Ideal S1024x1024 .bf16) (P5 : Vec Ideal S1024 .f32)
    (p : Fin 256) (e : Fin 1024) :
    hidBlock P0 P2 P5 (ix2 p e)
      = hidRow (fun d => P0 (ix3 (0 : Fin 1) p d)) (fun d e => P2 (ix2 d e)) (fun e => P5 (ix1 e)) e := by
  unfold hidBlock hidRow
  rw [addf_apply, vmatmul_apply _ plain_proj, rowBias_apply, shapeCast_self]
  exact congrArg (· + P5 (ix1 e)) (Finset.sum_congr rfl fun d _ => by rw [pay2_apply])

/-- The score block: (x · WT + b) · Mᵀ. -/
def scoreBlock (P0 : Vec Ideal S1x256x1024 .f32) (P2 : Vec Ideal S1024x1024 .bf16) (P5 : Vec Ideal S1024 .f32)
    (P1 : Vec Ideal S1x2048x1024 .bf16) : FVec Ideal S256x2048 .f32 :=
  matmul dot_S256x1024_S2048x1024_S256x2048_1_1_0_0_n_n none (truncf .bf16 (hidBlock P0 P2 P5) bitsLt_bf16_f32)
    (shapeCast S2048x1024 P1 shapeCasts_S1x2048x1024_S2048x1024 : FVec Ideal S2048x1024 .bf16)
    (constant S256x2048 .f32 0x00000000#32)

/-- At (p, k) the score block is the score of memory row k against the projected query of row p. -/
theorem scoreBlock_apply (P0 : Vec Ideal S1x256x1024 .f32) (P2 : Vec Ideal S1024x1024 .bf16) (P5 : Vec Ideal S1024 .f32)
    (P1 : Vec Ideal S1x2048x1024 .bf16) (p : Fin 256) (k : Fin 2048) :
    scoreBlock P0 P2 P5 P1 (ix2 p k)
      = scoreRow (hidRow (fun d => P0 (ix3 (0 : Fin 1) p d)) (fun d e => P2 (ix2 d e)) (fun e => P5 (ix1 e)))
          (fun s d => P1 (ix3 (0 : Fin 1) s d)) k := by
  unfold scoreBlock scoreRow
  rw [rows_score.matmul_apply]
  refine Finset.sum_congr rfl fun d _ => ?_
  rw [truncf_apply, hidBlock_apply, shapeCast_1ab_ab_apply]

/-- The stored attention weights are the row-wise softmax of the score block. -/
theorem pay3_eq (P0 : Vec Ideal S1x256x1024 .f32) (P2 : Vec Ideal S1024x1024 .bf16) (P5 : Vec Ideal S1024 .f32)
    (P1 : Vec Ideal S1x2048x1024 .bf16) :
    k0_pay3 P0 P2 P5 P1
      = vecSoftmax2 (F := Ideal) (scoreBlock P0 P2 P5 P1) reduces_S256x2048_S256 shapeCasts_S256_S256x1
          broadcasts_S256x1_S256x2048 (.inl rfl) rfl rfl := rfl

/-- The stored attention weights at (p, s): the softmax over the memory rows of the scores of query row p, at s. -/
theorem pay3_apply (P0 : Vec Ideal S1x256x1024 .f32) (P2 : Vec Ideal S1024x1024 .bf16) (P5 : Vec Ideal S1024 .f32)
    (P1 : Vec Ideal S1x2048x1024 .bf16) (p : Fin 256) (s : Fin 2048) :
    k0_pay3 P0 P2 P5 P1 (ix2 p s)
      = alignOf (fun d => P0 (ix3 (0 : Fin 1) p d)) (fun d e => P2 (ix2 d e)) (fun e => P5 (ix1 e))
          (fun s d => P1 (ix3 (0 : Fin 1) s d)) s := by
  refine (congrFun (pay3_eq P0 P2 P5 P1) (ix2 p s)).trans ((vecSoftmax2_apply (scoreBlock P0 P2 P5 P1)
    reduces_S256x2048_S256 shapeCasts_S256_S256x1 broadcasts_S256x1_S256x2048 (.inl rfl) rfl rfl p s).trans ?_)
  unfold alignOf
  exact congrArg (fun f : Fin 2048 → EReal => softmaxAt f s) (funext fun k => scoreBlock_apply P0 P2 P5 P1 p k)

/-! ## The context and the output -/

/-- The context block at (p, d): the attention weights of row p against column d of the memory bank. -/
theorem pay5_apply (P0 : Vec Ideal S1x256x1024 .f32) (P2 : Vec Ideal S1024x1024 .bf16) (P5 : Vec Ideal S1024 .f32)
    (P1 P1' : Vec Ideal S1x2048x1024 .bf16) (p : Fin 256) (d : Fin 1024) :
    k0_pay5 P0 P2 P5 P1 P1' (ix2 p d)
      = ∑ s : Fin 2048, k0_pay3 P0 P2 P5 P1 (ix2 p s) * P1' (ix3 (0 : Fin 1) s d) := by
  show matmul dot_S256x2048_S2048x1024_S256x1024_1_0_0_1_n_n none
      (truncf .bf16 (k0_pay3 P0 P2 P5 P1) bitsLt_bf16_f32)
      (shapeCast S2048x1024 P1' shapeCasts_S1x2048x1024_S2048x1024 : FVec Ideal S2048x1024 .bf16)
      (constant S256x1024 .f32 0x00000000#32) (ix2 p d) = _
  rw [vmatmul_apply _ plain_ctx]
  refine Finset.sum_congr rfl fun s _ => ?_
  rw [truncf_apply, shapeCast_1ab_ab_apply]

/-- The stored output at (0, p, e), from any query, context and weight blocks:
    tanh ((Σ d, c (p, d) · Wc (d, e) + Σ d, x (p, d) · Wi (d, e)) + bo e). -/
theorem pay1_read (v2 v30 : FVec Ideal S256x1024 .bf16) (v32 : FVec Ideal S1024x1024 .bf16)
    (v33 : Vec Ideal S1024x1024 .bf16) (v38 : Vec Ideal S1024 .f32) (p : Fin 256) (e : Fin 1024) :
    k0_pay1 v2 v30 v32 v33 v38 (ix3 (0 : Fin 1) p e)
      = Ideal.tanh (((∑ d : Fin 1024, v30 (ix2 p d) * v32 (ix2 d e)) + (∑ d : Fin 1024, v2 (ix2 p d) * v33 (ix2 d e)))
          + v38 (ix1 e)) := by
  show shapeCast S1x256x1024
      (tanh (addf
        (addf
          (matmul dot_S256x1024_S1024x1024_S256x1024_1_0_0_1_n_n none v30 v32 (constant S256x1024 .f32 0x00000000#32))
          (matmul dot_S256x1024_S1024x1024_S256x1024_1_0_0_1_n_n none v2
            (shapeCast S1024x1024 v33 shapeCasts_S1024x1024_S1024x1024 : FVec Ideal S1024x1024 .bf16)
            (constant S256x1024 .f32 0x00000000#32)))
        (broadcastTo S256x1024 (shapeCast S1x1024 v38 shapeCasts_S1024_S1x1024 : FVec Ideal S1x1024 .f32)
          broadcasts_S1x1024_S256x1024)))
      shapeCasts_S256x1024_S1x256x1024 (ix3 (0 : Fin 1) p e) = _
  rw [shapeCast_ab_1ab_apply]
  show Ideal.tanh ((_ + _) + _) = _
  rw [vmatmul_apply _ plain_proj, vmatmul_apply _ plain_proj, rowBias_apply, shapeCast_self]

/-- The stored attention output at (0, p, e): the output projection of the attention-weighted memory and the query
    row p, at e. -/
theorem pay1_apply (P0 : Vec Ideal S1x256x1024 .f32) (P1 : Vec Ideal S1x2048x1024 .bf16)
    (P2 P3 P4 : Vec Ideal S1024x1024 .bf16) (P5 P6 : Vec Ideal S1024 .f32) (p : Fin 256) (e : Fin 1024) :
    k0_pay1 (k0_pay2 P0) (k0_pay5 P0 P2 P5 P1 P1) (k0_pay6 P3) P4 P6 (ix3 (0 : Fin 1) p e)
      = attnOf (fun d => P0 (ix3 (0 : Fin 1) p d)) (fun s d => P1 (ix3 (0 : Fin 1) s d)) (fun d e => P2 (ix2 d e))
          (fun e => P5 (ix1 e)) (fun d e => P3 (ix2 d e)) (fun d e => P4 (ix2 d e)) (fun e => P6 (ix1 e)) e := by
  rw [pay1_read]
  unfold attnOf outRow ctxRow
  refine congrArg Ideal.tanh (congrArg (· + P6 (ix1 e)) (congrArg₂ (· + ·) ?_ ?_))
  · refine Finset.sum_congr rfl fun d _ => ?_
    rw [pay5_apply, pay6_apply]
    exact congrArg (· * P3 (ix2 d e)) (Finset.sum_congr rfl fun s _ => by rw [pay3_apply])
  · exact Finset.sum_congr rfl fun d _ => by rw [pay2_apply]

end

end Cert.Attention.Body

end
-- ==== Proof.Blocks.lean ====
/-
  From blocks to arrays: what the attention kernel leaves in its two result arrays.

  The kernel runs on a grid of 16 × 8 points (batch b, tile q of 256 query rows). At a point its windows hold: the query
  rows 256 q … 256 q + 255 of batch b; the whole memory bank of batch b; the input weight transposed, the left and the
  right half of the output weight, each transposed (the program computes these three before the kernel starts: entry
  (d, e) of each is entry (e, d), (e, d) and (e, 1024 + d) of the argument), and the two biases. So an element of a block is
  the argument's element at block index × block size + the element's place in the block (`iblk0_apply` … `iblk6_apply`).
  With the body's two stored values read at an index, the block a point writes back is that point's block of the
  specification's arrays (`flushed7_eq`, `flushed8_eq`); every index (b, t, ·) of either result lies in the block of the
  point (b, t / 256) (`cover7`, `cover8`); hence after the run the two result arrays are `attnArr` and `alignArr` of the
  arguments, and the arguments are unchanged (`run`).
-/
import proofs.«150495_j34995393527971_2_alg».proof.Proof.Gen.KernelIdeal.Value
import proofs.«150495_j34995393527971_2_alg».proof.Proof.Spec
import proofs.«150495_j34995393527971_2_alg».proof.Proof.Body
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Value Cert.Attention Idealize.ShloMosaic.ValueIdx

variable (m : (ℓ : Loc nD τ sig) → Buf (Elt Ideal) ℓ) (ρ : Dev nD → PrngReg)

/-- The memory bank as the region finds it: the argument itself (the change of format is the identity). -/
theorem V_mem (c : Dev nD) : (V m c main_v8 : S16x2048x1024.Idx → EReal) = m ((c : Thread nD τ).loc main_arg1) := by
  dsimp only [Gen.V, Gen.hostOps0]; after_results; rfl

/-- The input weight as the region finds it, transposed: entry (d, e) is the argument's entry (e, d). -/
theorem V_win_apply (c : Dev nD) (d e : Fin 1024) :
    (V m c main_v1 : S1024x1024.Idx → EReal) (ix2 d e) = (m ((c : Thread nD τ).loc main_arg2) : S1024x1024.Idx → EReal) (ix2 e d) := by
  have h : (V m c main_v1 : S1024x1024.Idx → EReal)
      = transpose S1024x1024 [1, 0] (m ((c : Thread nD τ).loc main_arg2) : S1024x1024.Idx → EReal) transposes_S1024x1024_S1024x1024_1_0 := by
    dsimp only [Gen.V, Gen.hostOps0]; after_results; rfl
  rw [h]
  exact transpose_apply _ _ _ _ (ix2 e d) (fun b => by
    match b with
    | ⟨0, _⟩ => rfl
    | ⟨1, _⟩ => rfl)

/-- The output weight's left half as the region finds it, transposed: entry (d, e) is the argument's entry (e, d). -/
theorem V_wc_apply (c : Dev nD) (d e : Fin 1024) :
    (V m c main_v5 : S1024x1024.Idx → EReal) (ix2 d e) = (m ((c : Thread nD τ).loc main_arg4) : S1024x2048.Idx → EReal) (ix2 e (lo d)) := by
  have h : (V m c main_v5 : S1024x1024.Idx → EReal)
      = transpose S1024x1024 [1, 0] (extractStridedSlice S1024x1024 ![0, 0]
          (m ((c : Thread nD τ).loc main_arg4) : S1024x2048.Idx → EReal) slices_S1024x2048_S1024x1024_0_0) transposes_S1024x1024_S1024x1024_1_0 := by
    dsimp only [Gen.V, Gen.hostOps0]; after_results; rfl
  rw [h]
  refine (transpose_apply _ _ _ _ (ix2 e d) (fun b => by
    match b with
    | ⟨0, _⟩ => rfl
    | ⟨1, _⟩ => rfl)).trans ?_
  exact extractStridedSlice_apply _ _ _ _ (ix2 e (lo d)) (fun a => by
    match a with
    | ⟨0, _⟩ => exact (Nat.zero_add _).symm
    | ⟨1, _⟩ => exact (Nat.zero_add _).symm)

/-- The output weight's right half as the region finds it, transposed: entry (d, e) is the argument's entry (e, 1024 + d). -/
theorem V_wi_apply (c : Dev nD) (d e : Fin 1024) :
    (V m c main_v7 : S1024x1024.Idx → EReal) (ix2 d e) = (m ((c : Thread nD τ).loc main_arg4) : S1024x2048.Idx → EReal) (ix2 e (hi d)) := by
  have h : (V m c main_v7 : S1024x1024.Idx → EReal)
      = transpose S1024x1024 [1, 0] (extractStridedSlice S1024x1024 ![0, 1024]
          (m ((c : Thread nD τ).loc main_arg4) : S1024x2048.Idx → EReal) slices_S1024x2048_S1024x1024_0_1024) transposes_S1024x1024_S1024x1024_1_0 := by
    dsimp only [Gen.V, Gen.hostOps0]; after_results; rfl
  rw [h]
  refine (transpose_apply _ _ _ _ (ix2 e d) (fun b => by
    match b with
    | ⟨0, _⟩ => rfl
    | ⟨1, _⟩ => rfl)).trans ?_
  exact extractStridedSlice_apply _ _ _ _ (ix2 e (hi d)) (fun a => by
    match a with
    | ⟨0, _⟩ => exact (Nat.zero_add _).symm
    | ⟨1, _⟩ => rfl)

/-- The printed index maps, decided over the grid: the query window and both output windows move together over
    (batch, row tile); the memory window follows the batch only; the weights and biases stay at block zero. -/
theorem idx_facts : ∀ t : Fin cfg0.N,
    win0_0.index t (0 : Fin 3) = win0_7.index t (0 : Fin 3) ∧ win0_0.index t (1 : Fin 3) = win0_7.index t (1 : Fin 3) ∧ win0_0.index t (2 : Fin 3) = 0
    ∧ win0_1.index t (0 : Fin 3) = win0_7.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0
    ∧ win0_8.index t (0 : Fin 3) = win0_7.index t (0 : Fin 3) ∧ win0_8.index t (1 : Fin 3) = win0_7.index t (1 : Fin 3) ∧ win0_8.index t (2 : Fin 3) = 0
    ∧ win0_7.index t (2 : Fin 3) = 0 ∧ win0_7.index t (0 : Fin 3) ≤ 15 ∧ win0_7.index t (1 : Fin 3) ≤ 7 :=
  (by decide +kernel : ∀ t : Fin grid0.N, _)

/-- Every (batch, row tile) is some grid point's. -/
theorem idx_onto : ∀ (q0 : Fin 16) (q1 : Fin 8), ∃ t : Fin cfg0.N, win0_7.index t = ![q0.val, q1.val, 0] :=
  (by decide +kernel : ∀ (q0 : Fin 16) (q1 : Fin 8), ∃ t : Fin grid0.N, win0_7.index t = ![q0.val, q1.val, 0])

/-- The query window's block at a point, read where the block sits in the array. -/
theorem iblk0_apply (c : Dev nD) (t : Fin cfg0.N) (y : S1x256x1024.Idx) (k : S16x2048x1024.Idx)
    (h0 : (k 0).val = win0_0.index t (0 : Fin 3) * 1 + (y 0).val) (h1 : (k 1).val = win0_0.index t (1 : Fin 3) * 256 + (y 1).val)
    (h2 : (k 2).val = win0_0.index t (2 : Fin 3) * 1024 + (y 2).val) :
    (iblk m c 0 t : Vec Ideal S1x256x1024 .f32) y = (m ((c : Thread nD τ).loc main_arg0) : S16x2048x1024.Idx → EReal) k := by
  unfold iblk
  rw [View.read_apply]
  show V m c main_arg0 _ = _
  rw [V_main_arg0]
  congr 1
  funext a
  apply Fin.ext
  match a with
  | ⟨0, _⟩ => show win0_0.index t (0 : Fin 3) * 1 + 1 * (y 0).val = (k 0).val; rw [h0]; omega
  | ⟨1, _⟩ => show win0_0.index t (1 : Fin 3) * 256 + 1 * (y 1).val = (k 1).val; rw [h1]; omega
  | ⟨2, _⟩ => show win0_0.index t (2 : Fin 3) * 1024 + 1 * (y 2).val = (k 2).val; rw [h2]; omega

/-- The memory window's block at a point, read where the block sits in the memory bank. -/
theorem iblk1_apply (c : Dev nD) (t : Fin cfg0.N) (y : S1x2048x1024.Idx) (k : S16x2048x1024.Idx)
    (h0 : (k 0).val = win0_1.index t (0 : Fin 3) * 1 + (y 0).val) (h1 : (k 1).val = win0_1.index t (1 : Fin 3) * 2048 + (y 1).val)
    (h2 : (k 2).val = win0_1.index t (2 : Fin 3) * 1024 + (y 2).val) :
    (iblk m c 1 t : Vec Ideal S1x2048x1024 .bf16) y = (m ((c : Thread nD τ).loc main_arg1) : S16x2048x1024.Idx → EReal) k := by
  unfold iblk
  rw [View.read_apply]
  show (V m c main_v8 : S16x2048x1024.Idx → EReal) _ = _
  rw [V_mem]
  congr 1
  funext a
  apply Fin.ext
  match a with
  | ⟨0, _⟩ => show win0_1.index t (0 : Fin 3) * 1 + 1 * (y 0).val = (k 0).val; rw [h0]; omega
  | ⟨1, _⟩ => show win0_1.index t (1 : Fin 3) * 2048 + 1 * (y 1).val = (k 1).val; rw [h1]; omega
  | ⟨2, _⟩ => show win0_1.index t (2 : Fin 3) * 1024 + 1 * (y 2).val = (k 2).val; rw [h2]; omega

/-- The input-weight window's one block is the transposed input weight. -/
theorem iblk2_apply (c : Dev nD) (t : Fin cfg0.N) (d e : Fin 1024) :
    (iblk m c 2 t : Vec Ideal S1024x1024 .bf16) (ix2 d e) = (m ((c : Thread nD τ).loc main_arg2) : S1024x1024.Idx → EReal) (ix2 e d) := by
  obtain ⟨-, -, -, -, -, -, z0, z1, -⟩ := idx_facts t
  unfold iblk
  rw [View.read_apply]
  show (V m c main_v1 : S1024x1024.Idx → EReal) _ = _
  refine Eq.trans (congrArg _ ?_) (V_win_apply m c d e)
  funext a
  apply Fin.ext
  match a with
  | ⟨0, _⟩ => show win0_2.index t (0 : Fin 2) * 1024 + 1 * d.val = d.val; rw [z0]; omega
  | ⟨1, _⟩ => show win0_2.index t (1 : Fin 2) * 1024 + 1 * e.val = e.val; rw [z1]; omega

/-- The left-half window's one block is the transposed left half of the output weight. -/
theorem iblk3_apply (c : Dev nD) (t : Fin cfg0.N) (d e : Fin 1024) :
    (iblk m c 3 t : Vec Ideal S1024x1024 .bf16) (ix2 d e) = (m ((c : Thread nD τ).loc main_arg4) : S1024x2048.Idx → EReal) (ix2 e (lo d)) := by
  obtain ⟨-, -, -, -, -, -, -, -, z0, z1, -⟩ := idx_facts t
  unfold iblk
  rw [View.read_apply]
  show (V m c main_v5 : S1024x1024.Idx → EReal) _ = _
  refine Eq.trans (congrArg _ ?_) (V_wc_apply m c d e)
  funext a
  apply Fin.ext
  match a with
  | ⟨0, _⟩ => show win0_3.index t (0 : Fin 2) * 1024 + 1 * d.val = d.val; rw [z0]; omega
  | ⟨1, _⟩ => show win0_3.index t (1 : Fin 2) * 1024 + 1 * e.val = e.val; rw [z1]; omega

/-- The right-half window's one block is the transposed right half of the output weight. -/
theorem iblk4_apply (c : Dev nD) (t : Fin cfg0.N) (d e : Fin 1024) :
    (iblk m c 4 t : Vec Ideal S1024x1024 .bf16) (ix2 d e) = (m ((c : Thread nD τ).loc main_arg4) : S1024x2048.Idx → EReal) (ix2 e (hi d)) := by
  obtain ⟨-, -, -, -, -, -, -, -, -, -, z0, z1, -⟩ := idx_facts t
  unfold iblk
  rw [View.read_apply]
  show (V m c main_v7 : S1024x1024.Idx → EReal) _ = _
  refine Eq.trans (congrArg _ ?_) (V_wi_apply m c d e)
  funext a
  apply Fin.ext
  match a with
  | ⟨0, _⟩ => show win0_4.index t (0 : Fin 2) * 1024 + 1 * d.val = d.val; rw [z0]; omega
  | ⟨1, _⟩ => show win0_4.index t (1 : Fin 2) * 1024 + 1 * e.val = e.val; rw [z1]; omega

/-- The input-bias window's one block is the input bias. -/
theorem iblk5_apply (c : Dev nD) (t : Fin cfg0.N) (e : Fin 1024) :
    (iblk m c 5 t : Vec Ideal S1024 .f32) (ix1 e) = (m ((c : Thread nD τ).loc main_arg3) : S1024.Idx → EReal) (ix1 e) := by
  obtain ⟨-, -, -, -, -, -, -, -, -, -, -, -, z0, -⟩ := idx_facts t
  unfold iblk
  rw [View.read_apply]
  show V m c main_arg3 _ = _
  rw [V_main_arg3]
  congr 1
  funext a
  apply Fin.ext
  match a with
  | ⟨0, _⟩ => show win0_5.index t (0 : Fin 1) * 1024 + 1 * e.val = e.val; rw [z0]; omega

/-- The output-bias window's one block is the output bias. -/
theorem iblk6_apply (c : Dev nD) (t : Fin cfg0.N) (e : Fin 1024) :
    (iblk m c 6 t : Vec Ideal S1024 .f32) (ix1 e) = (m ((c : Thread nD τ).loc main_arg5) : S1024.Idx → EReal) (ix1 e) := by
  obtain ⟨-, -, -, -, -, -, -, -, -, -, -, -, -, z0, -⟩ := idx_facts t
  unfold iblk
  rw [View.read_apply]
  show V m c main_arg5 _ = _
  rw [V_main_arg5]
  congr 1
  funext a
  apply Fin.ext
  match a with
  | ⟨0, _⟩ => show win0_6.index t (0 : Fin 1) * 1024 + 1 * e.val = e.val; rw [z0]; omega

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- One element of the attention-weights block: when the blocks the body loads are query row (b, r), the memory bank of
    batch b, the transposed input weight and its bias, the element at (p, s) is the whole array's at (b, r, s). -/
theorem align_point (P0 : Vec Ideal S1x256x1024 .f32) (P2 : Vec Ideal S1024x1024 .bf16) (P5 : Vec Ideal S1024 .f32)
    (P1 : Vec Ideal S1x2048x1024 .bf16) (X0 X1 : Sx.Idx → EReal) (X2 : Sw.Idx → EReal) (X3 : Sb.Idx → EReal)
    (p : Fin 256) (s : Fin 2048) (b : Fin 16) (r : Fin 2048)
    (hq : ∀ d : Fin 1024, P0 (ix3 (0 : Fin 1) p d) = X0 (ix3 b r d))
    (hm : ∀ (k : Fin 2048) (d : Fin 1024), P1 (ix3 (0 : Fin 1) k d) = X1 (ix3 b k d))
    (hw : ∀ d e : Fin 1024, P2 (ix2 d e) = X2 (ix2 e d))
    (hb : ∀ e : Fin 1024, P5 (ix1 e) = X3 (ix1 e)) :
    k0_pay4 P0 P2 P5 P1 (ix3 (0 : Fin 1) p s) = alignArr X0 X1 X2 X3 (ix3 b r s) := by
  have e4 : k0_pay4 P0 P2 P5 P1 (ix3 (0 : Fin 1) p s) = k0_pay3 P0 P2 P5 P1 (ix2 p s) :=
    (congrFun (Value.lay8_0_eq P0 P2 P5 P1) _).trans (shapeCast_ab_1ab_apply _ _ _ _ _)
  rw [e4, Body.pay3_apply]
  show _ = alignOf (fun d => X0 (ix3 b r d)) (fun d e => X2 (ix2 e d)) (fun e => X3 (ix1 e)) (fun k d => X1 (ix3 b k d)) s
  rw [funext hq, funext hb,
    show (fun (d e : Fin 1024) => P2 (ix2 d e)) = fun d e => X2 (ix2 e d) from funext fun d => funext fun e => hw d e,
    show (fun (k : Fin 2048) (d : Fin 1024) => P1 (ix3 (0 : Fin 1) k d)) = fun k d => X1 (ix3 b k d) from funext fun k => funext fun d => hm k d]

/-- One element of the attention-output block, likewise: at (p, e) it is the whole array's at (b, r, e). -/
theorem attn_point (P0 : Vec Ideal S1x256x1024 .f32) (P1 : Vec Ideal S1x2048x1024 .bf16) (P2 P3 P4 : Vec Ideal S1024x1024 .bf16)
    (P5 P6 : Vec Ideal S1024 .f32) (X0 X1 : Sx.Idx → EReal) (X2 : Sw.Idx → EReal) (X3 : Sb.Idx → EReal) (X4 : So.Idx → EReal)
    (X5 : Sb.Idx → EReal) (p : Fin 256) (e : Fin 1024) (b : Fin 16) (r : Fin 2048)
    (hq : ∀ d : Fin 1024, P0 (ix3 (0 : Fin 1) p d) = X0 (ix3 b r d))
    (hm : ∀ (k : Fin 2048) (d : Fin 1024), P1 (ix3 (0 : Fin 1) k d) = X1 (ix3 b k d))
    (hw : ∀ d e : Fin 1024, P2 (ix2 d e) = X2 (ix2 e d))
    (hb : ∀ e : Fin 1024, P5 (ix1 e) = X3 (ix1 e))
    (hc : ∀ d e : Fin 1024, P3 (ix2 d e) = X4 (ix2 e (lo d)))
    (hu : ∀ d e : Fin 1024, P4 (ix2 d e) = X4 (ix2 e (hi d)))
    (ho : ∀ e : Fin 1024, P6 (ix1 e) = X5 (ix1 e)) :
    k0_pay1 (k0_pay2 P0) (k0_pay5 P0 P2 P5 P1 P1) (k0_pay6 P3) P4 P6 (ix3 (0 : Fin 1) p e)
      = attnArr X0 X1 X2 X3 X4 X5 (ix3 b r e) := by
  rw [Body.pay1_apply]
  show _ = attnOf (fun d => X0 (ix3 b r d)) (fun k d => X1 (ix3 b k d)) (fun d e => X2 (ix2 e d)) (fun e => X3 (ix1 e))
    (fun d e => X4 (ix2 e (lo d))) (fun d e => X4 (ix2 e (hi d))) (fun e => X5 (ix1 e)) e
  rw [funext hq, funext hb, funext ho,
    show (fun (d e : Fin 1024) => P2 (ix2 d e)) = fun d e => X2 (ix2 e d) from funext fun d => funext fun e => hw d e,
    show (fun (d e : Fin 1024) => P3 (ix2 d e)) = fun d e => X4 (ix2 e (lo d)) from funext fun d => funext fun e => hc d e,
    show (fun (d e : Fin 1024) => P4 (ix2 d e)) = fun d e => X4 (ix2 e (hi d)) from funext fun d => funext fun e => hu d e,
    show (fun (k : Fin 2048) (d : Fin 1024) => P1 (ix3 (0 : Fin 1) k d)) = fun k d => X1 (ix3 b k d) from funext fun k => funext fun d => hm k d]

/-- What a grid point writes back to the attention-weights array is that point's block of `alignArr` of the arguments. -/
theorem flushed8_eq (c : Dev nD) (t : Fin cfg0.N) :
    (dats m 0 c).flushed 8 t = ((cfg0.win 8).blk t).view.read (Elt Ideal)
      (alignArr (m ((c : Thread nD τ).loc main_arg0)) (m ((c : Thread nD τ).loc main_arg1)) (m ((c : Thread nD τ).loc main_arg2))
        (m ((c : Thread nD τ).loc main_arg3))) := by
  rw [Value.flushed8]
  unfold out0_8
  rw [View.canon_unit_zero hz3]
  simp only [View.ld_unit_zero (S := S1x256x1024) hz3, View.ld_unit_zero (S := S1x2048x1024) hz3,
    View.ld_unit_zero (S := S1024x1024) hz2, View.ld_unit_zero (S := S1024) hz1]
  obtain ⟨a0, a1, a2, b0, b1, b2, -, -, -, -, -, -, -, -, o0, o1, o2, -, l0, l1⟩ := idx_facts t
  funext j
  obtain ⟨u, p, s, rfl⟩ : ∃ (u : Fin 1) (p : Fin 256) (s : Fin 2048), j = ix3 u p s := ⟨j 0, j 1, j 2, eq_ix3 j⟩
  obtain rfl : u = 0 := Subsingleton.elim _ _
  show k0_pay4 (iblk m c 0 t) (iblk m c 2 t) (iblk m c 5 t) (iblk m c 1 t) (ix3 (0 : Fin 1) p s)
    = alignArr _ _ _ _ (((cfg0.win 8).blk t).view.emb (ix3 (0 : Fin 1) p s))
  have hb : win0_8.index t (0 : Fin 3) < 16 := by omega
  have hr : win0_8.index t (1 : Fin 3) * 256 + p.val < 2048 := by have := p.isLt; omega
  have he : ((cfg0.win 8).blk t).view.emb (ix3 (0 : Fin 1) p s)
      = ix3 (⟨win0_8.index t (0 : Fin 3), hb⟩ : Fin 16) (⟨win0_8.index t (1 : Fin 3) * 256 + p.val, hr⟩ : Fin 2048) s := by
    funext a
    apply Fin.ext
    match a with
    | ⟨0, _⟩ => show win0_8.index t (0 : Fin 3) * 1 + 1 * 0 = win0_8.index t (0 : Fin 3); omega
    | ⟨1, _⟩ => show win0_8.index t (1 : Fin 3) * 256 + 1 * p.val = win0_8.index t (1 : Fin 3) * 256 + p.val; omega
    | ⟨2, _⟩ => show win0_8.index t (2 : Fin 3) * 2048 + 1 * s.val = s.val; omega
  rw [he]
  refine align_point _ _ _ _ _ _ _ _ p s _ _ (fun d => ?_) (fun k d => ?_) (fun d e => iblk2_apply m c t d e) (fun e => iblk5_apply m c t e)
  · refine iblk0_apply m c t _ _ ?_ ?_ ?_
    · show win0_8.index t (0 : Fin 3) = win0_0.index t (0 : Fin 3) * 1 + 0; omega
    · show win0_8.index t (1 : Fin 3) * 256 + p.val = win0_0.index t (1 : Fin 3) * 256 + p.val; omega
    · show d.val = win0_0.index t (2 : Fin 3) * 1024 + d.val; omega
  · refine iblk1_apply m c t _ _ ?_ ?_ ?_
    · show win0_8.index t (0 : Fin 3) = win0_1.index t (0 : Fin 3) * 1 + 0; omega
    · show k.val = win0_1.index t (1 : Fin 3) * 2048 + k.val; omega
    · show d.val = win0_1.index t (2 : Fin 3) * 1024 + d.val; omega

/-- What a grid point writes back to the attention-output array is that point's block of `attnArr` of the arguments. -/
theorem flushed7_eq (c : Dev nD) (t : Fin cfg0.N) :
    (dats m 0 c).flushed 7 t = ((cfg0.win 7).blk t).view.read (Elt Ideal)
      (attnArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Value.flushed7]
  unfold out0_7
  rw [View.canon_unit_zero hz3]
  simp only [View.ld_unit_zero (S := S1x256x1024) hz3, View.ld_unit_zero (S := S1x2048x1024) hz3,
    View.ld_unit_zero (S := S1024x1024) hz2, View.ld_unit_zero (S := S1024) hz1]
  obtain ⟨a0, a1, a2, b0, b1, b2, -, -, -, -, -, -, -, -, -, -, -, o2, l0, l1⟩ := idx_facts t
  funext j
  obtain ⟨u, p, e, rfl⟩ : ∃ (u : Fin 1) (p : Fin 256) (e : Fin 1024), j = ix3 u p e := ⟨j 0, j 1, j 2, eq_ix3 j⟩
  obtain rfl : u = 0 := Subsingleton.elim _ _
  show k0_pay1 (k0_pay2 (iblk m c 0 t)) (k0_pay5 (iblk m c 0 t) (iblk m c 2 t) (iblk m c 5 t) (iblk m c 1 t) (iblk m c 1 t))
      (k0_pay6 (iblk m c 3 t)) (iblk m c 4 t) (iblk m c 6 t) (ix3 (0 : Fin 1) p e)
    = attnArr _ _ _ _ _ _ (((cfg0.win 7).blk t).view.emb (ix3 (0 : Fin 1) p e))
  have hb : win0_7.index t (0 : Fin 3) < 16 := by omega
  have hr : win0_7.index t (1 : Fin 3) * 256 + p.val < 2048 := by have := p.isLt; omega
  have he : ((cfg0.win 7).blk t).view.emb (ix3 (0 : Fin 1) p e)
      = ix3 (⟨win0_7.index t (0 : Fin 3), hb⟩ : Fin 16) (⟨win0_7.index t (1 : Fin 3) * 256 + p.val, hr⟩ : Fin 2048) e := by
    funext a
    apply Fin.ext
    match a with
    | ⟨0, _⟩ => show win0_7.index t (0 : Fin 3) * 1 + 1 * 0 = win0_7.index t (0 : Fin 3); omega
    | ⟨1, _⟩ => show win0_7.index t (1 : Fin 3) * 256 + 1 * p.val = win0_7.index t (1 : Fin 3) * 256 + p.val; omega
    | ⟨2, _⟩ => show win0_7.index t (2 : Fin 3) * 1024 + 1 * e.val = e.val; omega
  rw [he]
  refine attn_point _ _ _ _ _ _ _ _ _ _ _ _ _ p e _ _ (fun d => ?_) (fun k d => ?_) (fun d e => iblk2_apply m c t d e)
    (fun e => iblk5_apply m c t e) (fun d e => iblk3_apply m c t d e) (fun d e => iblk4_apply m c t d e) (fun e => iblk6_apply m c t e)
  · refine iblk0_apply m c t _ _ ?_ ?_ ?_
    · show win0_7.index t (0 : Fin 3) = win0_0.index t (0 : Fin 3) * 1 + 0; omega
    · show win0_7.index t (1 : Fin 3) * 256 + p.val = win0_0.index t (1 : Fin 3) * 256 + p.val; omega
    · show d.val = win0_0.index t (2 : Fin 3) * 1024 + d.val; omega
  · refine iblk1_apply m c t _ _ ?_ ?_ ?_
    · show win0_7.index t (0 : Fin 3) = win0_1.index t (0 : Fin 3) * 1 + 0; omega
    · show k.val = win0_1.index t (1 : Fin 3) * 2048 + k.val; omega
    · show d.val = win0_1.index t (2 : Fin 3) * 1024 + d.val; omega

/-- An index of the attention-output array is in a point's block iff each coordinate is in the block's range on its axis. -/
theorem mem_blk7 (t : Fin cfg0.N) (i : S16x2048x1024.Idx) :
    i ∈ ((cfg0.win 7).blk t).view.set ↔ ∀ a : Fin 3, win0_7.index t a * S1x256x1024.size a ≤ (i a).val
      ∧ (i a).val < win0_7.index t a * S1x256x1024.size a + S1x256x1024.size a := by
  show i ∈ ((View.whole main_v9_0).slice (win0_7.rect t)).set ↔ _
  rw [View.set_slice_whole, Rect.mem_set_unit]
  exact Iff.rfl

/-- The same for the attention-weights array. -/
theorem mem_blk8 (t : Fin cfg0.N) (i : S16x2048x2048.Idx) :
    i ∈ ((cfg0.win 8).blk t).view.set ↔ ∀ a : Fin 3, win0_8.index t a * S1x256x2048.size a ≤ (i a).val
      ∧ (i a).val < win0_8.index t a * S1x256x2048.size a + S1x256x2048.size a := by
  show i ∈ ((View.whole main_v9_1).slice (win0_8.rect t)).set ↔ _
  rw [View.set_slice_whole, Rect.mem_set_unit]
  exact Iff.rfl

/-- Every index of the attention-output array lies in the block of the point of its batch and its row's tile. -/
theorem cover7 (i : S16x2048x1024.Idx) : ∃ t : Fin cfg0.N, (cfg0.win 7).flush t = true ∧ i ∈ ((cfg0.win 7).blk t).view.set := by
  have h0 : (i 0).val < 16 := (i 0).isLt
  have h1 : (i 1).val < 2048 := (i 1).isLt
  have h2 : (i 2).val < 1024 := (i 2).isLt
  obtain ⟨t, ht⟩ := idx_onto ⟨(i 0).val, h0⟩ ⟨(i 1).val / 256, by omega⟩
  have q0 : win0_7.index t (0 : Fin 3) = (i 0).val := congrFun ht 0
  have q1 : win0_7.index t (1 : Fin 3) = (i 1).val / 256 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 1024 ≤ (i 2).val ∧ (i 2).val < win0_7.index t (2 : Fin 3) * 1024 + 1024; omega

/-- Every index of the attention-weights array lies in the block of the point of its batch and its row's tile. -/
theorem cover8 (i : S16x2048x2048.Idx) : ∃ t : Fin cfg0.N, (cfg0.win 8).flush t = true ∧ i ∈ ((cfg0.win 8).blk t).view.set := by
  have h0 : (i 0).val < 16 := (i 0).isLt
  have h1 : (i 1).val < 2048 := (i 1).isLt
  have h2 : (i 2).val < 2048 := (i 2).isLt
  obtain ⟨t, ht⟩ := idx_onto ⟨(i 0).val, h0⟩ ⟨(i 1).val / 256, by omega⟩
  obtain ⟨-, -, -, -, -, -, -, -, -, -, -, -, -, -, o0, o1, o2, -⟩ := idx_facts t
  have q0 : win0_7.index t (0 : Fin 3) = (i 0).val := congrFun ht 0
  have q1 : win0_7.index t (1 : Fin 3) = (i 1).val / 256 := congrFun ht 1
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 256 ≤ (i 1).val ∧ (i 1).val < win0_8.index t (1 : Fin 3) * 256 + 256; omega
  | ⟨2, _⟩ => show win0_8.index t (2 : Fin 3) * 2048 ≤ (i 2).val ∧ (i 2).val < win0_8.index t (2 : Fin 3) * 2048 + 2048; omega

/-- After the run the attention-output array is `attnArr` of the arguments. -/
theorem final7 (c : Dev nD) : (dats m 0 c).arrAt 7 cfg0.N
    = attnArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 7 _ (fun t _ => flushed7_eq m c t) cover7

/-- After the run the attention-weights array is `alignArr` of the arguments. -/
theorem final8 (c : Dev nD) : (dats m 0 c).arrAt 8 cfg0.N
    = alignArr (m ((c : Thread nD τ).loc main_arg0)) (m ((c : Thread nD τ).loc main_arg1)) (m ((c : Thread nD τ).loc main_arg2))
        (m ((c : Thread nD τ).loc main_arg3)) :=
  (dats m 0 c).arrAt_eq_of_cover 8 _ (fun t _ => flushed8_eq m c t) cover8

/-- The kernel's run: both result arrays end at the specification's arrays of the arguments, the arguments unchanged. -/
theorem run : θ_run defs (onTc (τ := τ) (main (F := Ideal))) ⟨m, fun _ => 0, ρ⟩ fun r => ∀ c : Dev nD,
      r.2.mem ((c : Thread nD τ).loc main_v9_0)
        = attnArr (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_v9_1)
        = alignArr (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final7 m c), (h c).2.1.trans (final8 m c), (h c).2.2⟩)
    (Value.run_blocks m ρ)

end Cert.KernelIdeal.Arrays

end
-- ==== Proof.LibHostSoftmax3.lean ====
/-
  Softmax along the last axis of a rank-3 array as a host program writes it, read at an index, on the
  extended reals.

  On an array [a, b, c] the host program takes the maximum over axis 2 from the word of minus infinity,
  joins it once more with minus infinity (which changes nothing), spreads it back through [a, b, 1] to
  [a, b, c], subtracts, exponentiates, sums over axis 2 from zero, spreads the sum back the same way and
  divides (`hostSoftmax3`). Read at (p, g, l) it is `softmaxAt` of the row (p, g, ·) at `l`
  (`hostSoftmax3_apply`). The only laws used are max b (fold max b f) = fold max b f and 0 + s = s.
-/
import proofs.«150495_j34995393527971_2_alg».proof.Proof.LibLastAxisSoftmax

noncomputable section

open scoped BigOperators

namespace Idealize.ShloMosaic.LastAxisSoftmax

open Idealize.ShloMosaic Idealize.ShloMosaic.ValueIdx

section Host3
variable {n0 n1 n2 : Nat}

/-- A reduced array [a, b], broadcast to [a, b, 1] and then along the unit axis to [a, b, c], reads at
    (p, g, l) what it held at (p, g). -/
theorem keepdims3_host_apply {α : Type} (v : (⟨2, ![n0, n1]⟩ : Shape).Idx → α)
    (h1 : (⟨2, ![n0, n1]⟩ : Shape).BroadcastsInDim ⟨3, ![n0, n1, 1]⟩ (![0, 1] : Fin 2 → Fin 3))
    (h2 : (⟨3, ![n0, n1, 1]⟩ : Shape).BroadcastsInDim ⟨3, ![n0, n1, n2]⟩ (![0, 1, 2] : Fin 3 → Fin 3))
    (p : Fin n0) (g : Fin n1) (l : Fin n2) :
    broadcastInDim ⟨3, ![n0, n1, n2]⟩ ![0, 1, 2] h2 (broadcastInDim ⟨3, ![n0, n1, 1]⟩ ![0, 1] h1 v) (ix3 p g l)
      = v (ix2 p g) := by
  rw [broadcastInDim_apply _ h2 _ (ix3 p g l) (ix3 p g (⟨0, Nat.one_pos⟩ : Fin 1)) (fun d => by
    match d with
    | ⟨0, _⟩ =>
      show p.val = if n0 = 1 then 0 else p.val
      split
      · have := p.isLt; omega
      · rfl
    | ⟨1, _⟩ =>
      show g.val = if n1 = 1 then 0 else g.val
      split
      · have := g.isLt; omega
      · rfl
    | ⟨2, _⟩ =>
      show 0 = if (1 : Nat) = 1 then 0 else l.val
      rw [if_pos rfl])]
  exact broadcastInDim_apply _ h1 v _ (ix2 p g) (fun d => by
    match d with
    | ⟨0, _⟩ =>
      show p.val = if n0 = 1 then 0 else p.val
      split
      · have := p.isLt; omega
      · rfl
    | ⟨1, _⟩ =>
      show g.val = if n1 = 1 then 0 else g.val
      split
      · have := g.isLt; omega
      · rfl)

variable {F : FTy → Type} [FloatOps F]

/-- The host program: the maximum over axis 2 joined with minus infinity, subtracted, exponentiated, divided by
    the sum over axis 2 (from zero). -/
def hostSoftmax3 (X : FVec F ⟨3, ![n0, n1, n2]⟩ .f32)
    (hred : (⟨3, ![n0, n1, n2]⟩ : Shape).ReducesTo [2] ⟨2, ![n0, n1]⟩)
    (hu : 0 < (⟨0, ![]⟩ : Shape).numel)
    (h0 : (⟨0, ![]⟩ : Shape).BroadcastsInDim ⟨2, ![n0, n1]⟩ (![] : Fin 0 → Fin 2))
    (h1 : (⟨2, ![n0, n1]⟩ : Shape).BroadcastsInDim ⟨3, ![n0, n1, 1]⟩ (![0, 1] : Fin 2 → Fin 3))
    (h2 : (⟨3, ![n0, n1, 1]⟩ : Shape).BroadcastsInDim ⟨3, ![n0, n1, n2]⟩ (![0, 1, 2] : Fin 3 → Fin 3)) :
    FVec F ⟨3, ![n0, n1, n2]⟩ .f32 :=
  Host.divf
    (Host.exp (subf X (broadcastInDim ⟨3, ![n0, n1, n2]⟩ ![0, 1, 2] h2 (broadcastInDim ⟨3, ![n0, n1, 1]⟩ ![0, 1] h1
      (maximumf (broadcastInDim ⟨2, ![n0, n1]⟩ ![] h0 (constant ⟨0, ![]⟩ .f32 0xFF800000#32))
        (Host.reduce FloatOps.maximumf X (constant ⟨0, ![]⟩ .f32 0xFF800000#32) hred hu))))))
    (broadcastInDim ⟨3, ![n0, n1, n2]⟩ ![0, 1, 2] h2 (broadcastInDim ⟨3, ![n0, n1, 1]⟩ ![0, 1] h1
      (Host.reduceAdd
        (Host.exp (subf X (broadcastInDim ⟨3, ![n0, n1, n2]⟩ ![0, 1, 2] h2 (broadcastInDim ⟨3, ![n0, n1, 1]⟩ ![0, 1] h1
          (maximumf (broadcastInDim ⟨2, ![n0, n1]⟩ ![] h0 (constant ⟨0, ![]⟩ .f32 0xFF800000#32))
            (Host.reduce FloatOps.maximumf X (constant ⟨0, ![]⟩ .f32 0xFF800000#32) hred hu))))))
        (constant ⟨0, ![]⟩ .f32 0x00000000#32) hred hu)))

end Host3

/-- Read at (p, g, l), the host program is the softmax of row (p, g, ·) at `l`. -/
theorem hostSoftmax3_apply {n0 n1 n2 : Nat} (X : FVec Ideal ⟨3, ![n0, n1, n2]⟩ .f32)
    (hred : (⟨3, ![n0, n1, n2]⟩ : Shape).ReducesTo [2] ⟨2, ![n0, n1]⟩)
    (hr : (⟨3, ![n0, n1, n2]⟩ : Shape).Reduces [2] ⟨2, ![n0, n1]⟩)
    (hu : 0 < (⟨0, ![]⟩ : Shape).numel)
    (h0 : (⟨0, ![]⟩ : Shape).BroadcastsInDim ⟨2, ![n0, n1]⟩ (![] : Fin 0 → Fin 2))
    (h1 : (⟨2, ![n0, n1]⟩ : Shape).BroadcastsInDim ⟨3, ![n0, n1, 1]⟩ (![0, 1] : Fin 2 → Fin 3))
    (h2 : (⟨3, ![n0, n1, 1]⟩ : Shape).BroadcastsInDim ⟨3, ![n0, n1, n2]⟩ (![0, 1, 2] : Fin 3 → Fin 3))
    (p : Fin n0) (g : Fin n1) (l : Fin n2) :
    hostSoftmax3 (F := Ideal) X hred hu h0 h1 h2 (ix3 p g l) = softmaxAt (fun k : Fin n2 => X (ix3 p g k)) l := by
  -- the maximum at (p, g): joining the fold from minus infinity with minus infinity changes nothing
  have hM : maximumf (broadcastInDim ⟨2, ![n0, n1]⟩ ![] h0 (constant (F := Ideal) ⟨0, ![]⟩ .f32 0xFF800000#32))
        (Host.reduce FloatOps.maximumf X (constant (F := Ideal) ⟨0, ![]⟩ .f32 0xFF800000#32) hred hu) (ix2 p g)
      = (Finset.univ : Finset (Fin n2)).fold max negInf (fun k : Fin n2 => X (ix3 p g k)) := by
    show max (broadcastInDim ⟨2, ![n0, n1]⟩ ![] h0 (constant (F := Ideal) ⟨0, ![]⟩ .f32 0xFF800000#32) (ix2 p g))
        (Host.reduce FloatOps.maximumf X (constant (F := Ideal) ⟨0, ![]⟩ .f32 0xFF800000#32) hred hu (ix2 p g)) = _
    rw [Host.reduce_eq_fold_single FloatOps.maximumf X _ hred hr hu (ix2 p g),
      broadcastInDim_apply _ h0 _ (ix2 p g) ix0 (fun d => d.elim0)]
    show max negInf (Finset.univ.fold max negInf (X ∘ hr.lift (ix2 p g))) = _
    rw [max_eq_right ((Finset.le_fold_max _).2 (Or.inl le_rfl))]
    exact congrArg (fun f : Fin n2 → EReal => (Finset.univ : Finset (Fin n2)).fold max negInf f)
      (funext fun k => congrArg X (lift3 hr p g k))
  -- the exponentials at (p, g, k)
  have hE : ∀ k : Fin n2,
      Host.exp (subf X (broadcastInDim ⟨3, ![n0, n1, n2]⟩ ![0, 1, 2] h2 (broadcastInDim ⟨3, ![n0, n1, 1]⟩ ![0, 1] h1
          (maximumf (broadcastInDim ⟨2, ![n0, n1]⟩ ![] h0 (constant (F := Ideal) ⟨0, ![]⟩ .f32 0xFF800000#32))
            (Host.reduce FloatOps.maximumf X (constant (F := Ideal) ⟨0, ![]⟩ .f32 0xFF800000#32) hred hu))))) (ix3 p g k)
      = Ideal.exp (X (ix3 p g k) - (Finset.univ : Finset (Fin n2)).fold max negInf (fun k : Fin n2 => X (ix3 p g k))) := by
    intro k
    show Ideal.exp (X (ix3 p g k) - broadcastInDim ⟨3, ![n0, n1, n2]⟩ ![0, 1, 2] h2 (broadcastInDim ⟨3, ![n0, n1, 1]⟩ ![0, 1] h1
          (maximumf (broadcastInDim ⟨2, ![n0, n1]⟩ ![] h0 (constant (F := Ideal) ⟨0, ![]⟩ .f32 0xFF800000#32))
            (Host.reduce FloatOps.maximumf X (constant (F := Ideal) ⟨0, ![]⟩ .f32 0xFF800000#32) hred hu))) (ix3 p g k)) = _
    rw [keepdims3_host_apply, hM]
  unfold hostSoftmax3 softmaxAt
  show Ideal.div _ _ = _
  rw [hE l, keepdims3_host_apply]
  refine congrArg (Ideal.div _) ?_
  show Ideal.hostReduceAdd hred _ (Ideal.ofBits .f32 0x00000000#32) (ix2 p g) = _
  rw [Ideal.hostReduceAdd_single hred hr, Ideal.ofBits_zero_f32, zero_add]
  exact Finset.sum_congr rfl fun k _ => by rw [lift3 hr p g k, hE k]

end Idealize.ShloMosaic.LastAxisSoftmax

end
-- ==== Proof.LibSplitAccumulate.lean ====
/-
  Pure algebra on the extended reals for a contraction that is accumulated in halves and whose right operand is
  split into a rounded part and its remainder.

  * A sum over an index set of even size is the sum over its lower half plus the sum over its upper half.
  * For a real x the remainder x - x is 0, so a·x + a·(x - x) = a·x for every extended real a (a·0 = 0 holds on
    all extended reals); hence a contraction against the split operand is the contraction against the operand itself.
  * Reals are closed under +, ·, max and finite sums, as extended reals.
  * The two-step accumulation ((0 + S₀) + S₁) + h, clipped at 0, is max (h + (S₀ + S₁)) 0: only commutativity and
    associativity of + and 0 + x = x, which hold on all extended reals.
-/
import Mathlib.Algebra.BigOperators.Fin
import Idealize.ShloMosaic.PureOps.Ideal

noncomputable section

open scoped BigOperators

namespace Cert.SplitAccumulate

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- A finite sum of reals is real. -/
theorem isReal_sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The remainder of a real against itself is zero. -/
theorem sub_self_of_isReal {x : EReal} (hx : IsReal x) : x - x = 0 := by
  obtain ⟨r, rfl⟩ := hx
  rw [← EReal.coe_sub, sub_self, EReal.coe_zero]

/-- One product against the split operand: the remainder's product vanishes. -/
theorem mul_split (a : EReal) {x : EReal} (hx : IsReal x) : a * x + a * (x - x) = a * x := by
  rw [sub_self_of_isReal hx, mul_zero, add_zero]

/-- A contraction against the remainder of a real operand is zero. -/
theorem sum_mul_remainder {ι : Type*} [Fintype ι] (a x : ι → EReal) (hx : ∀ k, IsReal (x k)) :
    ∑ k, a k * (x k - x k) = 0 :=
  Finset.sum_eq_zero fun k _ => by rw [sub_self_of_isReal (hx k), mul_zero]

/-- A contraction against the split operand is the contraction against the operand. -/
theorem sum_split {ι : Type*} [Fintype ι] (a x : ι → EReal) (hx : ∀ k, IsReal (x k)) :
    ∑ k, a k * x k + ∑ k, a k * (x k - x k) = ∑ k, a k * x k := by
  rw [sum_mul_remainder a x hx, add_zero]

/-- A sum over an index set of size n + n is the sum over the lower half plus the sum over the upper half. -/
theorem sum_halves {M : Type*} [AddCommMonoid M] {n m : ℕ} (h : n + n = m) (f : Fin m → M) :
    ∑ v, f v = ∑ k : Fin n, f ⟨k.val, by omega⟩ + ∑ k : Fin n, f ⟨n + k.val, by omega⟩ := by
  subst h
  rw [Fin.sum_univ_add]
  rfl

/-- The two-step accumulation from zero, with the addend h, clipped at zero. -/
theorem accumulate_two (S0 S1 h : EReal) : max (((0 + S0) + S1) + h) 0 = max (h + (S0 + S1)) 0 := by
  rw [zero_add, add_comm (S0 + S1) h]

end Cert.SplitAccumulate

end
-- ==== Proof.RefIs.lean ====
/-
  The reference program computes the attention layer of the specification.

  The reference's two results are read index by index. Its attention weights, the array [16, 2048, 2048] it
  returns second, are at (b, t, s) the softmax over s of the scores  Σ d, h d · mem (b, s, d)  of the projected query
  h e = (Σ d, x (b, t, d) · Win (e, d)) + bin e : this is `alignArr` (`ref_align`). Its attention output, the array
  [16, 2048, 1024] it returns first, is at (b, t, e)
    tanh ((Σ f < 2048, [ctx, x (b, t, ·)] f · Wout (e, f)) + bout e),
  where ctx d = Σ s, align s · mem (b, s, d) and [ctx, x] is the concatenation of the two rows of 1024 features. The sum
  over the 2048 joined features is the sum over its lower half, which reads ctx against the columns 0..1023 of Wout,
  plus the sum over its upper half, which reads the query row against the columns 1024..2047: this is `attnArr`
  (`ref_attn`). Nothing else is used: no law of arithmetic beyond splitting that one sum into its two halves, and,
  inside the softmax, max (-∞) m = m and 0 + s = s.
-/
import proofs.«150495_j34995393527971_2_alg».proof.Proof.Gen.ReferenceIdeal.Read
import proofs.«150495_j34995393527971_2_alg».proof.Proof.Spec
import proofs.«150495_j34995393527971_2_alg».proof.Proof.LibHostSoftmax3
import proofs.«150495_j34995393527971_2_alg».proof.Proof.LibSplitAccumulate

noncomputable section

open scoped BigOperators

namespace Cert.Attention.Ref

open Cert.ReferenceIdeal Cert.ReferenceIdeal.Gen Cert.ReferenceIdeal.Read Cert.Attention
open Idealize.ShloMosaic Idealize.ShloMosaic.TcCoe Idealize.ShloMosaic.ValueIdx Idealize.ShloMosaic.LastAxisSoftmax

/-! ## The index maps of the contractions and broadcasts, at an index given by its coordinates -/

theorem lidx0 (b : Fin 16) (t : Fin 2048) (e k : Fin 1024) : lidx_main_v0 (ix3 b t e) k = ix3 b t k :=
  funext fun a => Fin.ext (by match a with | ⟨0, _⟩ => rfl | ⟨1, _⟩ => rfl | ⟨2, _⟩ => rfl)

theorem ridx0 (b : Fin 16) (t : Fin 2048) (e k : Fin 1024) : ridx_main_v0 (ix3 b t e) k = ix2 e k :=
  funext fun a => Fin.ext (by match a with | ⟨0, _⟩ => rfl | ⟨1, _⟩ => rfl)

theorem bidx (b : Fin 16) (t : Fin 2048) (e : Fin 1024) : idx_main_v1 (idx_main_v2 (ix3 b t e)) = ix1 e :=
  funext fun a => Fin.ext (by match a with | ⟨0, _⟩ => rfl)

theorem bidx' (b : Fin 16) (t : Fin 2048) (e : Fin 1024) : idx_main_v19 (idx_main_v20 (ix3 b t e)) = ix1 e :=
  funext fun a => Fin.ext (by match a with | ⟨0, _⟩ => rfl)

theorem lidx4 (b : Fin 16) (t s : Fin 2048) (k : Fin 1024) : lidx_main_v4 (ix3 b t s) k = ix3 b t k :=
  funext fun a => Fin.ext (by match a with | ⟨0, _⟩ => rfl | ⟨1, _⟩ => rfl | ⟨2, _⟩ => rfl)

theorem ridx4 (b : Fin 16) (t s : Fin 2048) (k : Fin 1024) : ridx_main_v4 (ix3 b t s) k = ix3 b s k :=
  funext fun a => Fin.ext (by match a with | ⟨0, _⟩ => rfl | ⟨1, _⟩ => rfl | ⟨2, _⟩ => rfl)

theorem lidx16 (b : Fin 16) (t : Fin 2048) (d : Fin 1024) (s : Fin 2048) : lidx_main_v16 (ix3 b t d) s = ix3 b t s :=
  funext fun a => Fin.ext (by match a with | ⟨0, _⟩ => rfl | ⟨1, _⟩ => rfl | ⟨2, _⟩ => rfl)

theorem ridx16 (b : Fin 16) (t : Fin 2048) (d : Fin 1024) (s : Fin 2048) : ridx_main_v16 (ix3 b t d) s = ix3 b s d :=
  funext fun a => Fin.ext (by match a with | ⟨0, _⟩ => rfl | ⟨1, _⟩ => rfl | ⟨2, _⟩ => rfl)

theorem lidx18 (b : Fin 16) (t : Fin 2048) (e : Fin 1024) (f : Fin 2048) : lidx_main_v18 (ix3 b t e) f = ix3 b t f :=
  funext fun a => Fin.ext (by match a with | ⟨0, _⟩ => rfl | ⟨1, _⟩ => rfl | ⟨2, _⟩ => rfl)

theorem ridx18 (b : Fin 16) (t : Fin 2048) (e : Fin 1024) (f : Fin 2048) : ridx_main_v18 (ix3 b t e) f = ix2 e f :=
  funext fun a => Fin.ext (by match a with | ⟨0, _⟩ => rfl | ⟨1, _⟩ => rfl)

/-! ## The attention weights -/

/-- The projected query at (b, t, e). -/
theorem hid_apply (x0 : (⟨S16x2048x1024, .f32⟩ : BufTy).Contents (Elt Ideal)) (x2 : (⟨S1024x1024, .f32⟩ : BufTy).Contents (Elt Ideal)) (x3 : (⟨S1024, .f32⟩ : BufTy).Contents (Elt Ideal)) (b : Fin 16) (t : Fin 2048) (e : Fin 1024) :
    val_main_v3 (F := Ideal) x0 x2 x3 (ix3 b t e)
      = hidRow (fun d => x0 (ix3 b t d)) (fun d e => x2 (ix2 e d)) (fun e => x3 (ix1 e)) e := by
  rw [val_main_v3_apply, val_main_v0_apply, val_main_v2_apply, val_main_v1_apply, bidx]
  unfold hidRow
  show (∑ k : Fin 1024, x0 (lidx_main_v0 (ix3 b t e) k) * x2 (ridx_main_v0 (ix3 b t e) k)) + x3 (ix1 e) = _
  refine congrArg (· + x3 (ix1 e)) (Finset.sum_congr rfl fun k _ => ?_)
  rw [lidx0, ridx0]

/-- The score of memory row s for the query row (b, t). -/
theorem score_apply (x0 x1 : (⟨S16x2048x1024, .f32⟩ : BufTy).Contents (Elt Ideal)) (x2 : (⟨S1024x1024, .f32⟩ : BufTy).Contents (Elt Ideal)) (x3 : (⟨S1024, .f32⟩ : BufTy).Contents (Elt Ideal)) (b : Fin 16) (t s : Fin 2048) :
    val_main_v4 (F := Ideal) x0 x1 x2 x3 (ix3 b t s)
      = scoreRow (hidRow (fun d => x0 (ix3 b t d)) (fun d e => x2 (ix2 e d)) (fun e => x3 (ix1 e)))
          (fun s' d => x1 (ix3 b s' d)) s := by
  rw [val_main_v4_apply]
  unfold scoreRow
  refine Finset.sum_congr rfl fun k _ => ?_
  rw [lidx4, ridx4, hid_apply]

/-- The reference's normalisation of the scores is the host softmax along the last axis. -/
theorem v15_eq (x0 x1 : (⟨S16x2048x1024, .f32⟩ : BufTy).Contents (Elt Ideal)) (x2 : (⟨S1024x1024, .f32⟩ : BufTy).Contents (Elt Ideal)) (x3 : (⟨S1024, .f32⟩ : BufTy).Contents (Elt Ideal)) :
    val_main_v15 (F := Ideal) x0 x1 x2 x3
      = hostSoftmax3 (F := Ideal) (val_main_v4 (F := Ideal) x0 x1 x2 x3) reducesTo_S16x2048x2048_S16x2048_d2 h_S_
          bcast_S_S16x2048 bcast_S16x2048_S16x2048x1_0_1 bcast_S16x2048x1_S16x2048x2048_0_1_2 := by
  unfold val_main_v15 val_main_v14 val_main_v13 val_main_v12 val_main_v11 val_main_v10 val_main_v9 val_main_v8 val_main_v7
    val_main_v6 val_main_v5 val_main_cst val_main_cst_0 val_main_cst_1 hostSoftmax3
  rfl

theorem ref_align (x0 x1 : (⟨S16x2048x1024, .f32⟩ : BufTy).Contents (Elt Ideal)) (x2 : (⟨S1024x1024, .f32⟩ : BufTy).Contents (Elt Ideal)) (x3 : (⟨S1024, .f32⟩ : BufTy).Contents (Elt Ideal)) :
    val_main_v15 x0 x1 x2 x3 = alignArr x0 x1 x2 x3 := by
  funext i
  obtain ⟨b, t, s, rfl⟩ : ∃ (b : Fin 16) (t : Fin 2048) (s : Fin 2048), i = ix3 b t s := ⟨i 0, i 1, i 2, eq_ix3 i⟩
  refine (congrFun (v15_eq x0 x1 x2 x3) (ix3 b t s)).trans ?_
  refine (hostSoftmax3_apply (val_main_v4 (F := Ideal) x0 x1 x2 x3) _ (by decide) _ _ _ _ b t s).trans ?_
  exact congrArg (fun f : Fin 2048 → EReal => softmaxAt f s) (funext fun k => score_apply x0 x1 x2 x3 b t k)

/-! ## The attention output -/

/-- The attention-weighted memory at (b, t, d). -/
theorem ctx_apply (x0 x1 : (⟨S16x2048x1024, .f32⟩ : BufTy).Contents (Elt Ideal)) (x2 : (⟨S1024x1024, .f32⟩ : BufTy).Contents (Elt Ideal)) (x3 : (⟨S1024, .f32⟩ : BufTy).Contents (Elt Ideal)) (b : Fin 16) (t : Fin 2048) (d : Fin 1024) :
    val_main_v16 (F := Ideal) x0 x1 x2 x3 (ix3 b t d)
      = ctxRow (alignOf (fun d => x0 (ix3 b t d)) (fun d e => x2 (ix2 e d)) (fun e => x3 (ix1 e)) (fun s d => x1 (ix3 b s d))) (fun s d => x1 (ix3 b s d)) d := by
  rw [val_main_v16_apply]
  unfold ctxRow
  refine Finset.sum_congr rfl fun s _ => ?_
  rw [lidx16, ridx16, ref_align]
  rfl

/-- In its lower half the joined row reads the attention-weighted memory. -/
theorem cat_lo (x0 x1 : (⟨S16x2048x1024, .f32⟩ : BufTy).Contents (Elt Ideal)) (x2 : (⟨S1024x1024, .f32⟩ : BufTy).Contents (Elt Ideal)) (x3 : (⟨S1024, .f32⟩ : BufTy).Contents (Elt Ideal)) (b : Fin 16) (t : Fin 2048) (d : Fin 1024) :
    val_main_v17 (F := Ideal) x0 x1 x2 x3 (ix3 b t (lo d)) = val_main_v16 (F := Ideal) x0 x1 x2 x3 (ix3 b t d) := by
  unfold val_main_v17
  exact concatenate_pair_apply_left (t := S16x2048x2048) (s₁ := S16x2048x1024) (s₂ := S16x2048x1024) (2 : Fin 3)
    (val_main_v16 (F := Ideal) x0 x1 x2 x3) x0 concatenates_S16x2048x1024_S16x2048x1024_S16x2048x2048_d2
    (ix3 b t (lo d)) rfl (ix3 b t d)
    (fun a => by match a with | ⟨0, _⟩ => rfl | ⟨1, _⟩ => rfl | ⟨2, _⟩ => rfl)

/-- In its upper half the joined row reads the query row. -/
theorem cat_hi (x0 x1 : (⟨S16x2048x1024, .f32⟩ : BufTy).Contents (Elt Ideal)) (x2 : (⟨S1024x1024, .f32⟩ : BufTy).Contents (Elt Ideal)) (x3 : (⟨S1024, .f32⟩ : BufTy).Contents (Elt Ideal)) (b : Fin 16) (t : Fin 2048) (d : Fin 1024) :
    val_main_v17 (F := Ideal) x0 x1 x2 x3 (ix3 b t (hi d)) = x0 (ix3 b t d) := by
  unfold val_main_v17
  exact concatenate_pair_apply_right (t := S16x2048x2048) (s₁ := S16x2048x1024) (s₂ := S16x2048x1024) (2 : Fin 3)
    (val_main_v16 (F := Ideal) x0 x1 x2 x3) x0 concatenates_S16x2048x1024_S16x2048x1024_S16x2048x2048_d2
    (ix3 b t (hi d)) rfl rfl (ix3 b t d)
    (fun a => by
      match a with
      | ⟨0, _⟩ => exact fun _ => rfl
      | ⟨1, _⟩ => exact fun _ => rfl
      | ⟨2, _⟩ => exact fun hne => absurd rfl hne)
    (by show d.val + 1024 = 1024 + d.val; omega)

/-- The output projection at (b, t, e): the contraction over the 2048 joined features, split into its halves. -/
theorem proj_apply (x0 x1 : (⟨S16x2048x1024, .f32⟩ : BufTy).Contents (Elt Ideal)) (x2 : (⟨S1024x1024, .f32⟩ : BufTy).Contents (Elt Ideal)) (x3 : (⟨S1024, .f32⟩ : BufTy).Contents (Elt Ideal)) (x4 : (⟨S1024x2048, .f32⟩ : BufTy).Contents (Elt Ideal)) (b : Fin 16) (t : Fin 2048) (e : Fin 1024) :
    val_main_v18 (F := Ideal) x0 x1 x2 x3 x4 (ix3 b t e)
      = (∑ d : Fin 1024, ctxRow (alignOf (fun d => x0 (ix3 b t d)) (fun d e => x2 (ix2 e d)) (fun e => x3 (ix1 e)) (fun s d => x1 (ix3 b s d))) (fun s d => x1 (ix3 b s d)) d * x4 (ix2 e (lo d)))
        + (∑ d : Fin 1024, x0 (ix3 b t d) * x4 (ix2 e (hi d))) := by
  rw [val_main_v18_apply]
  refine (Cert.SplitAccumulate.sum_halves (show 1024 + 1024 = 2048 from rfl) _).trans ?_
  refine congrArg₂ (· + ·) (Finset.sum_congr rfl fun d _ => ?_) (Finset.sum_congr rfl fun d _ => ?_)
  · show val_main_v17 (F := Ideal) x0 x1 x2 x3 (lidx_main_v18 (ix3 b t e) (lo d)) * x4 (ridx_main_v18 (ix3 b t e) (lo d)) = _
    rw [lidx18, ridx18, cat_lo, ctx_apply]
  · show val_main_v17 (F := Ideal) x0 x1 x2 x3 (lidx_main_v18 (ix3 b t e) (hi d)) * x4 (ridx_main_v18 (ix3 b t e) (hi d)) = _
    rw [lidx18, ridx18, cat_hi]

theorem ref_attn (x0 x1 : (⟨S16x2048x1024, .f32⟩ : BufTy).Contents (Elt Ideal)) (x2 : (⟨S1024x1024, .f32⟩ : BufTy).Contents (Elt Ideal)) (x3 : (⟨S1024, .f32⟩ : BufTy).Contents (Elt Ideal)) (x4 : (⟨S1024x2048, .f32⟩ : BufTy).Contents (Elt Ideal)) (x5 : (⟨S1024, .f32⟩ : BufTy).Contents (Elt Ideal)) :
    val_main_v22 x0 x1 x2 x3 x4 x5 = attnArr x0 x1 x2 x3 x4 x5 := by
  funext i
  obtain ⟨b, t, e, rfl⟩ : ∃ (b : Fin 16) (t : Fin 2048) (e : Fin 1024), i = ix3 b t e := ⟨i 0, i 1, i 2, eq_ix3 i⟩
  rw [val_main_v22_apply, val_main_v21_apply, val_main_v20_apply, val_main_v19_apply, proj_apply, bidx']
  rfl

end Cert.Attention.Ref

end
-- ==== Proof.lean ====
/-
  Luong attention, fused into one kernel over (batch, tile of 256 query rows), against its plain array program:
  both compute, on the extended reals, for every batch b and query row t

    h       = x (b, t, ·) · Winᵀ + bin                     the projected query,
    align s = softmax over s of  Σ d, h d · mem (b, s, d)   the attention weights (the second result),
    ctx     = Σ s, align s · mem (b, s, ·)                  the attention-weighted memory,
    attn    = tanh ([ctx, x (b, t, ·)] · Woutᵀ + bout)      the attention output (the first result).

  The kernel receives the input weight transposed and the output weight cut into its left and right halves, each
  transposed, and adds the two products ctx · (left half)ᵀ and x · (right half)ᵀ; the array program multiplies the joined
  row [ctx, x] with the whole output weight. The two agree because a sum over the 2048 joined features is the sum over
  its first 1024 plus the sum over its last 1024, which holds for every extended real; the changes of float format are
  the identity on the extended reals, both softmaxes subtract the row maximum taken from minus infinity (the array
  program joins it once more with minus infinity, which changes nothing) and divide by the row sum taken from zero.
  No step needs the inputs to be finite.

  Spec.lean states the two results as whole arrays of the six arguments (`attnArr`, `alignArr`). Body.lean reads the
  two values the kernel's body stores at an index; Blocks.lean reads each window's block where it lies in its array,
  shows that every grid point writes back its block of the two arrays and that the blocks cover them, and so names the
  kernel's two result arrays after its run; RefIs.lean reads the array program's two results as the same arrays. The
  three frames are the generated ones (the array program's is its generated run with the results dropped), and the
  idealization rewrote nothing.
-/
import proofs.«150495_j34995393527971_2_alg».proof.Defs
import proofs.«150495_j34995393527971_2_alg».proof.Proof.Gen.Kernel
import proofs.«150495_j34995393527971_2_alg».proof.Proof.Gen.Kernel.Frame
import proofs.«150495_j34995393527971_2_alg».proof.Proof.Gen.KernelIdeal
import proofs.«150495_j34995393527971_2_alg».proof.Proof.Gen.KernelIdeal.Frame
import proofs.«150495_j34995393527971_2_alg».proof.Proof.Gen.ReferenceIdeal
import proofs.«150495_j34995393527971_2_alg».proof.Proof.Gen.Pre_finite_inputs
import proofs.«150495_j34995393527971_2_alg».proof.Proof.Gen.KernelIdeal.Value
import proofs.«150495_j34995393527971_2_alg».proof.Proof.Gen.ReferenceIdeal.Run
import proofs.«150495_j34995393527971_2_alg».proof.Proof.Gen.ReferenceIdeal.Read
import proofs.«150495_j34995393527971_2_alg».proof.Proof.Blocks
import proofs.«150495_j34995393527971_2_alg».proof.Proof.RefIs
import Idealize.ShloMosaic.Adequacy
import Idealize.ShloMosaic.Init

noncomputable section

namespace Cert.Proof

open Idealize.ShloMosaic Idealize.ShloMosaic.TcCoe Idealize.SL.Sem Cert.Attention

theorem frame_kernel : Cert.frame_Kernel := fun m ρ _ => Cert.Kernel.Gen.frame m ρ

theorem frame_kernelIdeal : Cert.frame_KernelIdeal := fun m ρ _ => Cert.KernelIdeal.Gen.frame m ρ

/-- The array program's frame: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the attention output at `attnArr` and the attention weights at `alignArr` of the arguments,
    which agree. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v22_eq, Cert.Attention.Ref.ref_attn, (hagree c).1, (hagree c).2.1, (hagree c).2.2.1,
      (hagree c).2.2.2.1, (hagree c).2.2.2.2.1, (hagree c).2.2.2.2.2]
  · rw [Cert.ReferenceIdeal.Read.val_main_v15_eq, Cert.Attention.Ref.ref_align, (hagree c).1, (hagree c).2.1, (hagree c).2.2.1,
      (hagree c).2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
